-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part6 {F : FTy → Type} [FloatOps F] (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  main_v103

def fn_part5 {F : FTy → Type} [FloatOps F] (main_arg19 : FVec F S128 .f32) (main_arg20 : FVec F S128 .f32) (main_arg21 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg21
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_v98 main_v101 main_c_39

def fn_part4 {F : FTy → Type} [FloatOps F] (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_v63 main_v67

def fn_part2 {F : FTy → Type} [FloatOps F] (main_arg8 : FVec F S128x64 .f32) (main_arg9 : FVec F S64 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S50000x128 .f32) (main_arg1 : IVec S2x640000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S5000x128 : Shape := ⟨2, ![5000, 128]⟩
abbrev S690000x128 : Shape := ⟨2, ![690000, 128]⟩
abbrev S1x128 : Shape := ⟨2, ![1, 128]⟩
abbrev S50000x64 : Shape := ⟨2, ![50000, 64]⟩
abbrev S5000x64 : Shape := ⟨2, ![5000, 64]⟩
abbrev S690000x64 : Shape := ⟨2, ![690000, 64]⟩
abbrev S1x64 : Shape := ⟨2, ![1, 64]⟩

abbrev nBuf : Space → Nat
  | .hbm => 143
  | .vmem => 52
  | .smem => 0
  | _ => 0

abbrev hbmTy0_0 (i : Nat) : BufTy := match i % 128 with
  | 0 => ⟨S50000x128, .f32⟩
  | 1 => ⟨S2x640000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128, .f32⟩
  | 22 => ⟨S50000, .i32⟩
  | 23 => ⟨S1x640000, .i32⟩
  | 24 => ⟨S640000, .i32⟩
  | 25 => ⟨S690000, .i32⟩
  | 26 => ⟨S1x640000, .i32⟩
  | 27 => ⟨S640000, .i32⟩
  | 28 => ⟨S690000, .i32⟩
  | 29 => ⟨S_, .f32⟩
  | 30 => ⟨S690000, .f32⟩
  | 31 => ⟨S_, .f32⟩
  | 32 => ⟨S50000, .f32⟩
  | 33 => ⟨S690000x1, .i32⟩
  | 34 => ⟨S50000, .f32⟩
  | 35 => ⟨S50000, .f32⟩
  | 36 => ⟨S_, .i32⟩
  | 37 => ⟨S690000, .i32⟩
  | 38 => ⟨S690000, .i1⟩
  | 39 => ⟨S_, .i32⟩
  | 40 => ⟨S690000, .i32⟩
  | 41 => ⟨S690000, .i32⟩
  | 42 => ⟨S690000, .i32⟩
  | 43 => ⟨S690000x1, .i32⟩
  | 44 => ⟨S690000, .f32⟩
  | 45 => ⟨S_, .i32⟩
  | 46 => ⟨S690000, .i32⟩
  | 47 => ⟨S690000, .i1⟩
  | 48 => ⟨S_, .i32⟩
  | 49 => ⟨S690000, .i32⟩
  | 50 => ⟨S690000, .i32⟩
  | 51 => ⟨S690000, .i32⟩
  | 52 => ⟨S690000x1, .i32⟩
  | 53 => ⟨S690000, .f32⟩
  | 54 => ⟨S690000, .f32⟩
  | 55 => ⟨S50000x128, .f32⟩
  | 56 => ⟨S_, .i32⟩
  | 57 => ⟨S690000, .i32⟩
  | 58 => ⟨S690000, .i1⟩
  | 59 => ⟨S_, .i32⟩
  | 60 => ⟨S690000, .i32⟩
  | 61 => ⟨S690000, .i32⟩
  | 62 => ⟨S690000, .i32⟩
  | 63 => ⟨S690000x1, .i32⟩
  | 64 => ⟨S690000x128, .f32⟩
  | 65 => ⟨S690000x1, .f32⟩
  | 66 => ⟨S690000x128, .f32⟩
  | 67 => ⟨S690000x128, .f32⟩
  | 68 => ⟨S_, .f32⟩
  | 69 => ⟨S50000x128, .f32⟩
  | 70 => ⟨S690000x1, .i32⟩
  | 71 => ⟨S50000x128, .f32⟩
  | 72 => ⟨S1x128, .f32⟩
  | 73 => ⟨S1x128, .f32⟩
  | 74 => ⟨S1x128, .f32⟩
  | 75 => ⟨S1x128, .f32⟩
  | 76 => ⟨S1x128, .f32⟩
  | 77 => ⟨S50000x128, .f32⟩
  | 78 => ⟨S50000x128, .f32⟩
  | 79 => ⟨S_, .i32⟩
  | 80 => ⟨S690000, .i32⟩
  | 81 => ⟨S690000, .i1⟩
  | 82 => ⟨S_, .i32⟩
  | 83 => ⟨S690000, .i32⟩
  | 84 => ⟨S690000, .i32⟩
  | 85 => ⟨S690000, .i32⟩
  | 86 => ⟨S690000x1, .i32⟩
  | 87 => ⟨S690000x128, .f32⟩
  | 88 => ⟨S690000x1, .f32⟩
  | 89 => ⟨S690000x128, .f32⟩
  | 90 => ⟨S690000x128, .f32⟩
  | 91 => ⟨S_, .f32⟩
  | 92 => ⟨S50000x128, .f32⟩
  | 93 => ⟨S690000x1, .i32⟩
  | 94 => ⟨S50000x128, .f32⟩
  | 95 => ⟨S1x128, .f32⟩
  | 96 => ⟨S1x128, .f32⟩
  | 97 => ⟨S1x128, .f32⟩
  | 98 => ⟨S1x128, .f32⟩
  | 99 => ⟨S1x128, .f32⟩
  | 100 => ⟨S50000x128, .f32⟩
  | 101 => ⟨S50000x128, .f32⟩
  | 102 => ⟨S_, .i32⟩
  | 103 => ⟨S690000, .i32⟩
  | 104 => ⟨S690000, .i1⟩
  | 105 => ⟨S_, .i32⟩
  | 106 => ⟨S690000, .i32⟩
  | 107 => ⟨S690000, .i32⟩
  | 108 => ⟨S690000, .i32⟩
  | 109 => ⟨S690000x1, .i32⟩
  | 110 => ⟨S690000x128, .f32⟩
  | 111 => ⟨S690000x1, .f32⟩
  | 112 => ⟨S690000x128, .f32⟩
  | 113 => ⟨S690000x128, .f32⟩
  | 114 => ⟨S_, .f32⟩
  | 115 => ⟨S50000x128, .f32⟩
  | 116 => ⟨S690000x1, .i32⟩
  | 117 => ⟨S50000x128, .f32⟩
  | 118 => ⟨S1x128, .f32⟩
  | 119 => ⟨S1x128, .f32⟩
  | 120 => ⟨S1x128, .f32⟩
  | 121 => ⟨S1x128, .f32⟩
  | 122 => ⟨S1x128, .f32⟩
  | 123 => ⟨S50000x128, .f32⟩
  | 124 => ⟨S50000x64, .f32⟩
  | 125 => ⟨S_, .i32⟩
  | 126 => ⟨S690000, .i32⟩
  | 127 => ⟨S690000, .i1⟩
  | _ => ⟨S50000x128, .f32⟩

abbrev hbmTy0_1 (i : Nat) : BufTy := match i % 128 with
  | 0 => ⟨S_, .i32⟩
  | 1 => ⟨S690000, .i32⟩
  | 2 => ⟨S690000, .i32⟩
  | 3 => ⟨S690000, .i32⟩
  | 4 => ⟨S690000x1, .i32⟩
  | 5 => ⟨S690000x64, .f32⟩
  | 6 => ⟨S690000x1, .f32⟩
  | 7 => ⟨S690000x64, .f32⟩
  | 8 => ⟨S690000x64, .f32⟩
  | 9 => ⟨S_, .f32⟩
  | 10 => ⟨S50000x64, .f32⟩
  | 11 => ⟨S690000x1, .i32⟩
  | 12 => ⟨S50000x64, .f32⟩
  | 13 => ⟨S1x64, .f32⟩
  | 14 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S1x64, .f32⟩
  | .local _ .vmem, ⟨50, _⟩ => ⟨S5000x64, .f32⟩
  | .local _ .vmem, ⟨51, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_c : Ref sig .tc := ⟨.hbm, 36, rfl⟩
abbrev main_v12 : Ref sig .tc := ⟨.hbm, 37, rfl⟩
abbrev main_v13 : Ref sig .tc := ⟨.hbm, 38, rfl⟩
abbrev main_c_1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_2 : Ref sig .tc := ⟨.hbm, 45, rfl⟩
abbrev main_v19 : Ref sig .tc := ⟨.hbm, 46, rfl⟩
abbrev main_v20 : Ref sig .tc := ⟨.hbm, 47, rfl⟩
abbrev main_c_3 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_4 : Ref sig .tc := ⟨.hbm, 56, rfl⟩
abbrev main_v28 : Ref sig .tc := ⟨.hbm, 57, rfl⟩
abbrev main_v29 : Ref sig .tc := ⟨.hbm, 58, rfl⟩
abbrev main_c_5 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_6 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_c_7 : Ref sig .tc := ⟨.hbm, 79, rfl⟩
abbrev main_v48 : Ref sig .tc := ⟨.hbm, 80, rfl⟩
abbrev main_v49 : Ref sig .tc := ⟨.hbm, 81, rfl⟩
abbrev main_c_8 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_9 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_10 : Ref sig .tc := ⟨.hbm, 102, rfl⟩
abbrev main_v68 : Ref sig .tc := ⟨.hbm, 103, rfl⟩
abbrev main_v69 : Ref sig .tc := ⟨.hbm, 104, rfl⟩
abbrev main_c_11 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_12 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_13 : Ref sig .tc := ⟨.hbm, 125, rfl⟩
abbrev main_v88 : Ref sig .tc := ⟨.hbm, 126, rfl⟩
abbrev main_v89 : Ref sig .tc := ⟨.hbm, 127, rfl⟩
abbrev main_c_14 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_15 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg2_0 : Ref sig .tc := ⟨.vmem, 50, rfl⟩
abbrev cc7_stg2_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem2_0 : DmaSem sig := 50
abbrev cc7_sem2_1 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S690000x1_S690000x64_0_1 : S690000x1.BroadcastsInDim S690000x64 (![0, 1] : Fin 2 → Fin S690000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S5000x128_S128x128_S5000x128_1_0_0_1_n_n_wf : DotDims.WF S5000x128 S128x128 S5000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S5000x128_S128x64_S5000x64_1_0_0_1_n_n_wf : DotDims.WF S5000x128 S128x64 S5000x64 [1] [0] [0] [1] [] []
  gather_S50000x64_S690000x1_S690000x64_1_0_n_n_0_1_164_wf : GatherDims.WF S50000x64 S690000x1 S690000x64 [1] [0] [] [0] [] 1 ![1, 64]
  scatter_S50000x64_S690000x1_S690000x64_1_0_0_1_wf : ScatterDims.WF S50000x64 S690000x1 S690000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S50000x64.size a
  hwx6_2 : ∀ i : grid6.Coords, EltTy.bits .f32 = 32 ∨ (Rect.block (s := S50000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S50000x64.size a
  hwx7_2 : ∀ i : grid7.Coords, EltTy.bits .f32 = 32 ∨ (Rect.block (s := S50000x64) S5000x64.size (cc7_transform_2 i) (hinb7_2 i)).WholeWords (EltTy.packing .f32)

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S690000x1_S690000x64_1_0_n_n_0_1_164 : GatherDims S50000x64 S690000x1 S690000x64 where
  offsetDims := [1]
  collapsedSliceDims := [0]
  operandBatchingDims := []
  startIndicesBatchingDims := []
  startIndexMap := [0]
  indexVectorDim := 1
  sliceSizes := ![1, 64]
  wf := gather_S50000x64_S690000x1_S690000x64_1_0_n_n_0_1_164_wf
def scatter_S50000x64_S690000x1_S690000x64_1_0_0_1 : ScatterDims S50000x64 S690000x1 S690000x64 where
  updateWindowDims := [1]
  insertedWindowDims := [0]
  scatterDimsToOperandDims := [0]
  indexVectorDim := 1
  wf := scatter_S50000x64_S690000x1_S690000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v66) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v66) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v80) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v81) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v82) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v83) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v84) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v85) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v86) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v86) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v87) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v100) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v101) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v102) S5000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S690000x128 : Shape := ⟨2, ![690000, 128]⟩
abbrev S1x128 : Shape := ⟨2, ![1, 128]⟩
abbrev S50000x64 : Shape := ⟨2, ![50000, 64]⟩
abbrev S690000x64 : Shape := ⟨2, ![690000, 64]⟩
abbrev S1x64 : Shape := ⟨2, ![1, 64]⟩

abbrev nBuf : Space → Nat
  | .hbm => 192
  | .vmem => 0
  | .smem => 0
  | _ => 0

abbrev hbmTy0_0 (i : Nat) : BufTy := match i % 128 with
  | 0 => ⟨S50000x128, .f32⟩
  | 1 => ⟨S2x640000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S128, .f32⟩
  | 19 => ⟨S128, .f32⟩
  | 20 => ⟨S128, .f32⟩
  | 21 => ⟨S128, .f32⟩
  | 22 => ⟨S50000, .i32⟩
  | 23 => ⟨S1x640000, .i32⟩
  | 24 => ⟨S640000, .i32⟩
  | 25 => ⟨S690000, .i32⟩
  | 26 => ⟨S1x640000, .i32⟩
  | 27 => ⟨S640000, .i32⟩
  | 28 => ⟨S690000, .i32⟩
  | 29 => ⟨S_, .f32⟩
  | 30 => ⟨S690000, .f32⟩
  | 31 => ⟨S_, .f32⟩
  | 32 => ⟨S50000, .f32⟩
  | 33 => ⟨S690000x1, .i32⟩
  | 34 => ⟨S50000, .f32⟩
  | 35 => ⟨S50000, .f32⟩
  | 36 => ⟨S_, .i32⟩
  | 37 => ⟨S690000, .i32⟩
  | 38 => ⟨S690000, .i1⟩
  | 39 => ⟨S_, .i32⟩
  | 40 => ⟨S690000, .i32⟩
  | 41 => ⟨S690000, .i32⟩
  | 42 => ⟨S690000, .i32⟩
  | 43 => ⟨S690000x1, .i32⟩
  | 44 => ⟨S690000, .f32⟩
  | 45 => ⟨S_, .i32⟩
  | 46 => ⟨S690000, .i32⟩
  | 47 => ⟨S690000, .i1⟩
  | 48 => ⟨S_, .i32⟩
  | 49 => ⟨S690000, .i32⟩
  | 50 => ⟨S690000, .i32⟩
  | 51 => ⟨S690000, .i32⟩
  | 52 => ⟨S690000x1, .i32⟩
  | 53 => ⟨S690000, .f32⟩
  | 54 => ⟨S690000, .f32⟩
  | 55 => ⟨S50000x128, .f32⟩
  | 56 => ⟨S_, .i32⟩
  | 57 => ⟨S690000, .i32⟩
  | 58 => ⟨S690000, .i1⟩
  | 59 => ⟨S_, .i32⟩
  | 60 => ⟨S690000, .i32⟩
  | 61 => ⟨S690000, .i32⟩
  | 62 => ⟨S690000, .i32⟩
  | 63 => ⟨S690000x1, .i32⟩
  | 64 => ⟨S690000x128, .f32⟩
  | 65 => ⟨S690000x1, .f32⟩
  | 66 => ⟨S690000x128, .f32⟩
  | 67 => ⟨S690000x128, .f32⟩
  | 68 => ⟨S_, .f32⟩
  | 69 => ⟨S50000x128, .f32⟩
  | 70 => ⟨S690000x1, .i32⟩
  | 71 => ⟨S50000x128, .f32⟩
  | 72 => ⟨S1x128, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S128, .f32⟩
  | 80 => ⟨S128, .f32⟩
  | 81 => ⟨S128, .f32⟩
  | 82 => ⟨S1x128, .f32⟩
  | 83 => ⟨S50000x128, .f32⟩
  | 84 => ⟨S50000x128, .f32⟩
  | 85 => ⟨S1x128, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S50000x128, .f32⟩
  | 95 => ⟨S_, .i32⟩
  | 96 => ⟨S690000, .i32⟩
  | 97 => ⟨S690000, .i1⟩
  | 98 => ⟨S_, .i32⟩
  | 99 => ⟨S690000, .i32⟩
  | 100 => ⟨S690000, .i32⟩
  | 101 => ⟨S690000, .i32⟩
  | 102 => ⟨S690000x1, .i32⟩
  | 103 => ⟨S690000x128, .f32⟩
  | 104 => ⟨S690000x1, .f32⟩
  | 105 => ⟨S690000x128, .f32⟩
  | 106 => ⟨S690000x128, .f32⟩
  | 107 => ⟨S_, .f32⟩
  | 108 => ⟨S50000x128, .f32⟩
  | 109 => ⟨S690000x1, .i32⟩
  | 110 => ⟨S50000x128, .f32⟩
  | 111 => ⟨S1x128, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S128, .f32⟩
  | 119 => ⟨S128, .f32⟩
  | 120 => ⟨S128, .f32⟩
  | 121 => ⟨S1x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S50000x128, .f32⟩
  | 6 => ⟨S_, .i32⟩
  | 7 => ⟨S690000, .i32⟩
  | 8 => ⟨S690000, .i1⟩
  | 9 => ⟨S_, .i32⟩
  | 10 => ⟨S690000, .i32⟩
  | 11 => ⟨S690000, .i32⟩
  | 12 => ⟨S690000, .i32⟩
  | 13 => ⟨S690000x1, .i32⟩
  | 14 => ⟨S690000x128, .f32⟩
  | 15 => ⟨S690000x1, .f32⟩
  | 16 => ⟨S690000x128, .f32⟩
  | 17 => ⟨S690000x128, .f32⟩
  | 18 => ⟨S_, .f32⟩
  | 19 => ⟨S50000x128, .f32⟩
  | 20 => ⟨S690000x1, .i32⟩
  | 21 => ⟨S50000x128, .f32⟩
  | 22 => ⟨S1x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S_, .f32⟩
  | 29 => ⟨S128, .f32⟩
  | 30 => ⟨S128, .f32⟩
  | 31 => ⟨S128, .f32⟩
  | 32 => ⟨S1x128, .f32⟩
  | 33 => ⟨S50000x128, .f32⟩
  | 34 => ⟨S50000x128, .f32⟩
  | 35 => ⟨S1x128, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S50000x64, .f32⟩
  | 45 => ⟨S_, .i32⟩
  | 46 => ⟨S690000, .i32⟩
  | 47 => ⟨S690000, .i1⟩
  | 48 => ⟨S_, .i32⟩
  | 49 => ⟨S690000, .i32⟩
  | 50 => ⟨S690000, .i32⟩
  | 51 => ⟨S690000, .i32⟩
  | 52 => ⟨S690000x1, .i32⟩
  | 53 => ⟨S690000x64, .f32⟩
  | 54 => ⟨S690000x1, .f32⟩
  | 55 => ⟨S690000x64, .f32⟩
  | 56 => ⟨S690000x64, .f32⟩
  | 57 => ⟨S_, .f32⟩
  | 58 => ⟨S50000x64, .f32⟩
  | 59 => ⟨S690000x1, .i32⟩
  | 60 => ⟨S50000x64, .f32⟩
  | 61 => ⟨S1x64, .f32⟩
  | 62 => ⟨S50000x64, .f32⟩
  | 63 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_c : Ref sig .tc := ⟨.hbm, 36, rfl⟩
abbrev main_v12 : Ref sig .tc := ⟨.hbm, 37, rfl⟩
abbrev main_v13 : Ref sig .tc := ⟨.hbm, 38, rfl⟩
abbrev main_c_1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_2 : Ref sig .tc := ⟨.hbm, 45, rfl⟩
abbrev main_v19 : Ref sig .tc := ⟨.hbm, 46, rfl⟩
abbrev main_v20 : Ref sig .tc := ⟨.hbm, 47, rfl⟩
abbrev main_c_3 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_4 : Ref sig .tc := ⟨.hbm, 56, rfl⟩
abbrev main_v28 : Ref sig .tc := ⟨.hbm, 57, rfl⟩
abbrev main_v29 : Ref sig .tc := ⟨.hbm, 58, rfl⟩
abbrev main_c_5 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_6 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_7 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_call0_cst : Ref sig .tc := ⟨.hbm, 91, rfl⟩
abbrev main_call0_v0 : Ref sig .tc := ⟨.hbm, 92, rfl⟩
abbrev main_v59 : Ref sig .tc := ⟨.hbm, 93, rfl⟩
abbrev main_v60 : Ref sig .tc := ⟨.hbm, 94, rfl⟩
abbrev main_c_8 : Ref sig .tc := ⟨.hbm, 95, rfl⟩
abbrev main_v61 : Ref sig .tc := ⟨.hbm, 96, rfl⟩
abbrev main_v62 : Ref sig .tc := ⟨.hbm, 97, rfl⟩
abbrev main_c_9 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_10 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_11 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_call1_cst : Ref sig .tc := ⟨.hbm, 130, rfl⟩
abbrev main_call1_v0 : Ref sig .tc := ⟨.hbm, 131, rfl⟩
abbrev main_v92 : Ref sig .tc := ⟨.hbm, 132, rfl⟩
abbrev main_v93 : Ref sig .tc := ⟨.hbm, 133, rfl⟩
abbrev main_c_12 : Ref sig .tc := ⟨.hbm, 134, rfl⟩
abbrev main_v94 : Ref sig .tc := ⟨.hbm, 135, rfl⟩
abbrev main_v95 : Ref sig .tc := ⟨.hbm, 136, rfl⟩
abbrev main_c_13 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_14 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_cst_15 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_call2_cst : Ref sig .tc := ⟨.hbm, 169, rfl⟩
abbrev main_call2_v0 : Ref sig .tc := ⟨.hbm, 170, rfl⟩
abbrev main_v125 : Ref sig .tc := ⟨.hbm, 171, rfl⟩
abbrev main_v126 : Ref sig .tc := ⟨.hbm, 172, rfl⟩
abbrev main_c_16 : Ref sig .tc := ⟨.hbm, 173, rfl⟩
abbrev main_v127 : Ref sig .tc := ⟨.hbm, 174, rfl⟩
abbrev main_v128 : Ref sig .tc := ⟨.hbm, 175, rfl⟩
abbrev main_c_17 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_18 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S690000x1_S690000x64_0_1 : S690000x1.BroadcastsInDim S690000x64 (![0, 1] : Fin 2 → Fin S690000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S50000x128_S128x128_S50000x128_1_0_0_1_n_n_wf : DotDims.WF S50000x128 S128x128 S50000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S50000x128_S128x64_S50000x64_1_0_0_1_n_n_wf : DotDims.WF S50000x128 S128x64 S50000x64 [1] [0] [0] [1] [] []
  gather_S50000x64_S690000x1_S690000x64_1_0_n_n_0_1_164_wf : GatherDims.WF S50000x64 S690000x1 S690000x64 [1] [0] [] [0] [] 1 ![1, 64]
  scatter_S50000x64_S690000x1_S690000x64_1_0_0_1_wf : ScatterDims.WF S50000x64 S690000x1 S690000x64 [1] [0] [0] 1

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S690000x1_S690000x64_1_0_n_n_0_1_164 : GatherDims S50000x64 S690000x1 S690000x64 where
  offsetDims := [1]
  collapsedSliceDims := [0]
  operandBatchingDims := []
  startIndicesBatchingDims := []
  startIndexMap := [0]
  indexVectorDim := 1
  sliceSizes := ![1, 64]
  wf := gather_S50000x64_S690000x1_S690000x64_1_0_n_n_0_1_164_wf
def scatter_S50000x64_S690000x1_S690000x64_1_0_0_1 : ScatterDims S50000x64 S690000x1 S690000x64 where
  updateWindowDims := [1]
  insertedWindowDims := [0]
  scatterDimsToOperandDims := [0]
  indexVectorDim := 1
  wf := scatter_S50000x64_S690000x1_S690000x64_1_0_0_1_wf

class Facts : Prop extends Facts₀ where

variable [Facts]
-- ==== Proof.Spec.lean ====
/-
  The dense, per-node stages of a graph-convolution layer over the extended reals, written index by index.

  For a node p and a feature q the normalised, rectified feature is
      max ( ((a(p,q) + b(q)) − μ(q)) · rsqrt(σ²(q) + ε) · γ(q) + β(q) , 0 ),
  where a is the aggregated message array and b, γ, β, μ, σ² are row vectors stored as [1, C] arrays; the last
  layer only adds its bias row, a(p,q) + b(q).  The constant ε is the single-precision word 0x3727C5AC, kept as
  its word: both programs carry the same word, so its value is never needed.
-/
import Idealize.ShloMosaic.PureOps.Ideal
import Idealize.ShloMosaic.Lib.ValueIdx

noncomputable section

namespace Cert.GcnSpec

open Idealize.ShloMosaic Idealize.ShloMosaic.ValueIdx

/-- One entry of the normalised, rectified feature array, from the aggregated entry and the five row entries. -/
def normReluEntry (a b g be mu var : EReal) : EReal :=
  max ((((a + b) - mu) * Ideal.rsqrt (var + Ideal.ofBits .f32 0x3727C5AC#32)) * g + be) (Ideal.ofBits .f32 0x00000000#32)

/-- The normalised, rectified feature array: entry (p, q) reads the aggregated array at (p, q) and each row vector
    at (0, q). -/
def normRelu {N C : ℕ} (agg : (⟨2, ![N, C]⟩ : Shape).Idx → EReal)
    (b g be mu var : (⟨2, ![1, C]⟩ : Shape).Idx → EReal) : (⟨2, ![N, C]⟩ : Shape).Idx → EReal :=
  fun i => normReluEntry (agg i) (b (ix2 0 (i 1))) (g (ix2 0 (i 1))) (be (ix2 0 (i 1))) (mu (ix2 0 (i 1))) (var (ix2 0 (i 1)))

/-- The last layer's output: the aggregated array plus the bias row, entry (p, q) reading the row at (0, q). -/
def addRow {N C : ℕ} (agg : (⟨2, ![N, C]⟩ : Shape).Idx → EReal)
    (b : (⟨2, ![1, C]⟩ : Shape).Idx → EReal) : (⟨2, ![N, C]⟩ : Shape).Idx → EReal :=
  fun i => agg i + b (ix2 0 (i 1))

theorem normRelu_apply {N C : ℕ} (agg : (⟨2, ![N, C]⟩ : Shape).Idx → EReal)
    (b g be mu var : (⟨2, ![1, C]⟩ : Shape).Idx → EReal) (p : Fin N) (q : Fin C) :
    normRelu agg b g be mu var (ix2 p q)
      = normReluEntry (agg (ix2 p q)) (b (ix2 0 q)) (g (ix2 0 q)) (be (ix2 0 q)) (mu (ix2 0 q)) (var (ix2 0 q)) := rfl

theorem addRow_apply {N C : ℕ} (agg : (⟨2, ![N, C]⟩ : Shape).Idx → EReal)
    (b : (⟨2, ![1, C]⟩ : Shape).Idx → EReal) (p : Fin N) (q : Fin C) :
    addRow agg b (ix2 p q) = agg (ix2 p q) + b (ix2 0 q) := rfl

end Cert.GcnSpec

end
-- ==== Proof.LibSpreadRow.lean ====
/-
  Row vectors and scalar constants spread over an array, read at an index (over any element type; the last two over
  the extended reals).

  A length-C vector b becomes a [1, C] row either by a reshape or by a broadcast along a new leading axis; spread over
  N rows, entry (p, q) of the result is b(q) either way.  A scalar constant spread over any shape reads the constant
  everywhere.  The host's reciprocal square root of an array is taken entry by entry.
-/
import Idealize.ShloMosaic.Lib.ValueIdx
import Idealize.ShloMosaic.Lib.Pipeline.Value
import Idealize.ShloMosaic.PureOps.Ideal.Laws

noncomputable section

namespace Cert.LibSpreadRow

open Idealize.ShloMosaic Idealize.ShloMosaic.ValueIdx

variable {N C : ℕ}

/-- A vector made a row by a broadcast along a new leading axis and then spread over N rows: entry (p, q) is b(q). -/
theorem spread_row_apply {α : Type} (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (p : Fin N) (q : Fin C) :
    broadcastInDim ⟨2, ![N, C]⟩ ![0, 1] h2 (broadcastInDim ⟨2, ![1, C]⟩ ![1] h1 b) (ix2 p q) = b (ix1 q) := by
  have e2 : broadcastInDim ⟨2, ![N, C]⟩ ![0, 1] h2 (broadcastInDim ⟨2, ![1, C]⟩ ![1] h1 b) (ix2 p q)
      = broadcastInDim ⟨2, ![1, C]⟩ ![1] h1 b (ix2 0 q) := by
    refine broadcastInDim_apply ![0, 1] h2 _ (ix2 p q) (ix2 0 q) fun a => ?_
    match a with
    | ⟨0, _⟩ => show (0 : ℕ) = if (1 : ℕ) = 1 then 0 else p.val; rfl
    | ⟨1, _⟩ =>
      show q.val = if C = 1 then 0 else q.val
      split
      · have := q.isLt; omega
      · rfl
  have e1 : broadcastInDim ⟨2, ![1, C]⟩ ![1] h1 b (ix2 0 q) = b (ix1 q) := by
    refine broadcastInDim_apply ![1] h1 b (ix2 0 q) (ix1 q) fun a => ?_
    match a with
    | ⟨0, _⟩ =>
      show q.val = if C = 1 then 0 else q.val
      split
      · have := q.isLt; omega
      · rfl
  rw [e2, e1]

/-- A vector reshaped to a [1, C] row, read at (0, q), is b(q). -/
theorem reshape_row_apply {α : Type} (b : (⟨1, ![C]⟩ : Shape).Idx → α)
    (h : (⟨1, ![C]⟩ : Shape).ShapeCasts ⟨2, ![1, C]⟩) (q : Fin C) :
    shapeCast ⟨2, ![1, C]⟩ b h (ix2 0 q) = b (ix1 q) := by
  refine shapeCast_apply b h (ix2 0 q) (ix1 q) ?_
  rw [Shape.rowMajor_val_one, Shape.rowMajor_val_two]
  show q.val = (0 : Fin 1).val * C + q.val
  simp

/-- A scalar constant spread over any shape reads the constant's value everywhere. -/
theorem spread_const_apply {t : Shape} {φ : FTy} (w : BitVec φ.bits)
    (h : (⟨0, ![]⟩ : Shape).BroadcastsInDim t ![]) (j : t.Idx) :
    broadcastInDim t ![] h (constant (F := Ideal) ⟨0, ![]⟩ φ w) j = Ideal.ofBits φ w :=
  (broadcastInDim_apply (s := ⟨0, ![]⟩) ![] h (constant (F := Ideal) ⟨0, ![]⟩ φ w) j (fun a => a.elim0) (fun a => a.elim0)).trans rfl

/-- The host's reciprocal square root of an array, read at an index. -/
theorem host_rsqrt_apply {s : Shape} {φ : FTy} (v : FVec Ideal s φ) (i : s.Idx) : Host.rsqrt v i = Ideal.rsqrt (v i) := rfl

end Cert.LibSpreadRow

end
-- ==== Proof.RowForms.lean ====
/-
  The two spellings of a layer's dense tail.

  The index-by-index forms of the normalise-and-rectify stage and of the bias add (Spec.lean), taken over row vectors
  that were reshaped to [1, C], are the compositions of whole-array operations on the vectors themselves: add the
  bias row, subtract the mean row, multiply by rsqrt(variance + ε), by the scale row, add the shift row, and take the
  maximum with zero — each row spread over the N rows of the array (LibSpreadRow.lean).
-/
import proofs.«152018_j8220567405097_1_alg».proof.Proof.Spec
import proofs.«152018_j8220567405097_1_alg».proof.Proof.LibSpreadRow
import Idealize.ShloMosaic.Lib.ValueIdx
import Idealize.ShloMosaic.Lib.Pipeline.Value
import Idealize.ShloMosaic.PureOps.Ideal.Laws

noncomputable section

namespace Cert.GcnSpec

open Idealize.ShloMosaic Idealize.ShloMosaic.ValueIdx Cert.LibSpreadRow

variable {N C : ℕ}

/-- The normalise-and-rectify stage over reshaped rows is the composition of whole-array operations. -/
theorem normRelu_reshaped (agg : FVec Ideal ⟨2, ![N, C]⟩ .f32) (b g be mu var : FVec Ideal ⟨1, ![C]⟩ .f32)
    (hc : (⟨1, ![C]⟩ : Shape).ShapeCasts ⟨2, ![1, C]⟩)
    (h1 : (⟨1, ![C]⟩ : Shape).BroadcastsInDim ⟨2, ![1, C]⟩ ![1])
    (h2 : (⟨2, ![1, C]⟩ : Shape).BroadcastsInDim ⟨2, ![N, C]⟩ ![0, 1])
    (h0 : (⟨0, ![]⟩ : Shape).BroadcastsInDim ⟨1, ![C]⟩ ![])
    (hz : (⟨0, ![]⟩ : Shape).BroadcastsInDim ⟨2, ![N, C]⟩ ![]) :
    normRelu agg (shapeCast ⟨2, ![1, C]⟩ b hc) (shapeCast ⟨2, ![1, C]⟩ g hc) (shapeCast ⟨2, ![1, C]⟩ be hc)
        (shapeCast ⟨2, ![1, C]⟩ mu hc) (shapeCast ⟨2, ![1, C]⟩ var hc)
      = maximumf (addf (mulf (mulf (subf (addf agg
            (broadcastInDim ⟨2, ![N, C]⟩ ![0, 1] h2 (broadcastInDim ⟨2, ![1, C]⟩ ![1] h1 b)))
            (broadcastInDim ⟨2, ![N, C]⟩ ![0, 1] h2 (broadcastInDim ⟨2, ![1, C]⟩ ![1] h1 mu)))
            (broadcastInDim ⟨2, ![N, C]⟩ ![0, 1] h2 (broadcastInDim ⟨2, ![1, C]⟩ ![1] h1
              (Host.rsqrt (addf var (broadcastInDim ⟨1, ![C]⟩ ![] h0 (constant ⟨0, ![]⟩ .f32 0x3727C5AC#32)))))))
            (broadcastInDim ⟨2, ![N, C]⟩ ![0, 1] h2 (broadcastInDim ⟨2, ![1, C]⟩ ![1] h1 g)))
            (broadcastInDim ⟨2, ![N, C]⟩ ![0, 1] h2 (broadcastInDim ⟨2, ![1, C]⟩ ![1] h1 be)))
          (broadcastInDim ⟨2, ![N, C]⟩ ![] hz (constant ⟨0, ![]⟩ .f32 0x00000000#32)) := by
  funext i
  obtain ⟨p, q, rfl⟩ : ∃ (p : Fin N) (q : Fin C), i = ix2 p q := ⟨i 0, i 1, eq_ix2 i⟩
  rw [normRelu_apply]
  simp only [maximumf_apply, addf_apply, mulf_apply, subf_apply, reshape_row_apply]
  rw [spread_row_apply (b := b), spread_row_apply (b := mu), spread_row_apply (b := g), spread_row_apply (b := be),
    spread_row_apply (b := Host.rsqrt _), host_rsqrt_apply, addf_apply, spread_const_apply, spread_const_apply]
  rfl

/-- The bias add over a reshaped row is the whole-array sum with the spread row. -/
theorem addRow_reshaped (agg : FVec Ideal ⟨2, ![N, C]⟩ .f32) (b : FVec Ideal ⟨1, ![C]⟩ .f32)
    (hc : (⟨1, ![C]⟩ : Shape).ShapeCasts ⟨2, ![1, C]⟩)
    (h1 : (⟨1, ![C]⟩ : Shape).BroadcastsInDim ⟨2, ![1, C]⟩ ![1])
    (h2 : (⟨2, ![1, C]⟩ : Shape).BroadcastsInDim ⟨2, ![N, C]⟩ ![0, 1]) :
    addRow agg (shapeCast ⟨2, ![1, C]⟩ b hc)
      = addf agg (broadcastInDim ⟨2, ![N, C]⟩ ![0, 1] h2 (broadcastInDim ⟨2, ![1, C]⟩ ![1] h1 b)) := by
  funext i
  obtain ⟨p, q, rfl⟩ : ∃ (p : Fin N) (q : Fin C), i = ix2 p q := ⟨i 0, i 1, eq_ix2 i⟩
  rw [addRow_apply]
  simp only [addf_apply, reshape_row_apply]
  rw [spread_row_apply]

end Cert.GcnSpec

end
-- ==== Proof.LibDenseEntry.lean ====
/-
  The plain matrix product [M, K] × [K, N] → [M, N] over the extended reals, read at an entry, for any extents and
  any dimension record with the plain axis lists: entry (p, n) is ∑ k, l (p, k) · r (k, n) — for the matrix unit's
  product into an accumulator that is zero everywhere, and for the host's product.
-/
import Idealize.ShloMosaic.PureOps.Ideal.Laws
import Idealize.ShloMosaic.Lib.ValueIdx

noncomputable section

namespace Cert.LibDenseEntry

open Idealize.ShloMosaic Idealize.ShloMosaic.ValueIdx

variable {M K N : ℕ}

/-- [M, K] × [K, N] → [M, N], the left operand's second axis contracted with the right operand's first:
    entry (p, n) is ∑ k, l (p, k) · r (k, n). -/
theorem matmul_plain_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (n : Fin N) :
    FloatOps.matmul d prec l r (constant ⟨2, ![M, N]⟩ .f32 0x00000000#32) (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.matmul_constant_zero_apply d prec l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

/-- The host's product of the same shape, read the same way. -/
theorem dotGeneral_plain_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![M, K]⟩ φ₁) (r : FVec Ideal ⟨2, ![K, N]⟩ φ₂) (p : Fin M) (n : Fin N) :
    FloatOps.dotGeneral d prec sched l r (ix2 p n)
      = ∑ k : Fin K, l (ix2 p k) * r (ix2 k n) := by
  obtain ⟨lc, rc, ln, rn, lb, rb, wf⟩ := d
  dsimp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hr : d.contr.rank = 1 := by subst hd; rfl
  have hs : d.contr.size ⟨0, by rw [hr]; exact Nat.one_pos⟩ = K := by subst hd; rfl
  have hlc : d.lhsContracting = [1] := by subst hd; rfl
  have hrc : d.rhsContracting = [0] := by subst hd; rfl
  have lrow : ∀ (j : (⟨2, ![M, N]⟩ : Shape).Idx) (q : d.contr.Idx), (d.lhsIdx j q 0).val = (j 0).val := by
    intro j q; subst hd
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have rcol : ∀ (j : (⟨2, ![M, N]⟩ : Shape).Idx) (q : d.contr.Idx), (d.rhsIdx j q 1).val = (j 1).val := by
    intro j q; subst hd
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  refine (Ideal.dotGeneral_apply d prec sched l r (ix2 p n)).trans ?_
  rw [← Equiv.sum_comp (contrEquiv1 d K hr hs).symm]
  refine Finset.sum_congr rfl fun k _ => ?_
  have hk := contrEquiv1_symm_val d K hr hs k
  have el : d.lhsIdx (ix2 p n) ((contrEquiv1 d K hr hs).symm k) = ix2 p k :=
    funext fun a => Fin.ext (by
      match a with
      | ⟨0, _⟩ => exact lrow _ _
      | ⟨1, _⟩ => exact (d.lhsIdx_val_of_single hlc (ix2 p n) _).trans hk)
  have er : d.rhsIdx (ix2 p n) ((contrEquiv1 d K hr hs).symm k) = ix2 k n :=
    funext fun a => Fin.ext (by
      match a with
      | ⟨0, _⟩ => exact (d.rhsIdx_val_of_single hrc (ix2 p n) _).trans hk
      | ⟨1, _⟩ => exact rcol _ _)
  exact congrArg₂ (· * ·) (congrArg l el) (congrArg r er)

end Cert.LibDenseEntry

end
-- ==== Proof.LibBlockProduct.lean ====
/-
  The product of a row block with a weight matrix is the matching row block of the whole product: over the
  extended reals an entry of [Mb, K] × [K, N] is a sum over k that reads only one row of the left operand, so when
  row p of the block is row r of the whole matrix, entry (p, n) of the block's product into a zero accumulator is
  entry (r, n) of the whole product.
-/
import Idealize.ShloMosaic.PureOps.Ideal.Laws
import Idealize.ShloMosaic.Lib.ValueIdx
import proofs.«152018_j8220567405097_1_alg».proof.Proof.LibDenseEntry

noncomputable section

namespace Cert.LibBlockProduct

open Idealize.ShloMosaic Idealize.ShloMosaic.ValueIdx

variable {M Mb K N : ℕ}

/-- Entry (p, n) of a row block's product (the matrix unit's, into zero) is entry (r, n) of the whole host product
    when the block's row p is the matrix's row r and the right operands agree on column n. -/
theorem block_product {φ₁ φ₂ ψ₁ ψ₂ : FTy}
    (db : DotDims ⟨2, ![Mb, K]⟩ ⟨2, ![K, N]⟩ ⟨2, ![Mb, N]⟩)
    (b1 : db.lhsContracting = [1]) (b2 : db.rhsContracting = [0]) (b3 : db.lhsNonContracting = [0])
    (b4 : db.rhsNonContracting = [1]) (b5 : db.lhsBatch = []) (b6 : db.rhsBatch = [])
    (df : DotDims ⟨2, ![M, K]⟩ ⟨2, ![K, N]⟩ ⟨2, ![M, N]⟩)
    (f1 : df.lhsContracting = [1]) (f2 : df.rhsContracting = [0]) (f3 : df.lhsNonContracting = [0])
    (f4 : df.rhsNonContracting = [1]) (f5 : df.lhsBatch = []) (f6 : df.rhsBatch = [])
    (prec prec' : Option ContractPrecision) (sched : HostSchedule)
    (xb : FVec Ideal ⟨2, ![Mb, K]⟩ φ₁) (w : FVec Ideal ⟨2, ![K, N]⟩ φ₂)
    (X : FVec Ideal ⟨2, ![M, K]⟩ ψ₁) (w' : FVec Ideal ⟨2, ![K, N]⟩ ψ₂)
    (p : Fin Mb) (r : Fin M) (n : Fin N)
    (hx : ∀ k : Fin K, xb (ix2 p k) = X (ix2 r k)) (hw : ∀ k : Fin K, w (ix2 k n) = w' (ix2 k n)) :
    FloatOps.matmul db prec xb w (constant ⟨2, ![Mb, N]⟩ .f32 0x00000000#32) (ix2 p n)
      = FloatOps.dotGeneral df prec' sched X w' (ix2 r n) := by
  refine (Cert.LibDenseEntry.matmul_plain_zero_apply db b1 b2 b3 b4 b5 b6 prec xb w p n).trans ?_
  refine Eq.trans ?_ (Cert.LibDenseEntry.dotGeneral_plain_apply df f1 f2 f3 f4 f5 f6 prec' sched X w' r n).symm
  exact Finset.sum_congr rfl fun k _ => by rw [hx k, hw k]

end Cert.LibBlockProduct

end
-- ==== Proof.Dense0.lean ====
/-
  Region 0: a dense layer's product, computed block by block.

  The region walks the 50000 rows in ten blocks of 5000: at point t it multiplies rows 5000·t … 5000·t + 4999 of
  the left matrix by the whole weight matrix (into an accumulator that starts at zero) and writes the block back to the
  same rows of the result.  Over the extended reals an entry of a product is a sum over the contracted index that reads
  one row of the left operand only, so each written block is the matching row block of the whole product, and the ten
  blocks tile the result: the result array is the whole product of the two entry arrays.
-/
import proofs.«152018_j8220567405097_1_alg».proof.Proof.Gen.KernelIdeal.Frame
import proofs.«152018_j8220567405097_1_alg».proof.Proof.LibBlockProduct
import Idealize.ShloMosaic.Lib.ValueIdx
import Idealize.ShloMosaic.Lib.Pipeline.Value
import Idealize.ShloMosaic.PureOps.Ideal.Laws

set_option maxRecDepth 16384

noncomputable section

namespace Cert.KernelIdeal.Dense0

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The whole product the region's result is compared with: any dimension record with the plain axis lists. -/
structure Plain (df : DotDims S50000x128 S128x128 S50000x128) : Prop where
  f1 : df.lhsContracting = [1]
  f2 : df.rhsContracting = [0]
  f3 : df.lhsNonContracting = [0]
  f4 : df.rhsNonContracting = [1]
  f5 : df.lhsBatch = []
  f6 : df.rhsBatch = []

/-- One entry of the block the body stores: entry (p, q) of the block's product is entry (r, q) of the whole product,
    when row p of the left block is row r of the left matrix and the weight block is the weight matrix. -/
theorem stored_entry (df : DotDims S50000x128 S128x128 S50000x128) (hdf : Plain df) (prec' : Option ContractPrecision) (sched : HostSchedule)
    (x0 : Vec Ideal S5000x128 .f32) (x1 : Vec Ideal S128x128 .f32)
    (X : FVec Ideal S50000x128 .f32) (Wt : FVec Ideal S128x128 .f32) (p : Fin 5000) (q : Fin 128) (r : Fin 50000)
    (hx : ∀ k : Fin 128, x0 (ix2 p k) = X (ix2 r k)) (hw : ∀ k : Fin 128, x1 (ix2 k q) = Wt (ix2 k q)) :
    out0_2 (F := Ideal) x0 x1 (ix2 p q) = FloatOps.dotGeneral (F := Ideal) (φ₁ := .f32) (φ₂ := .f32) df prec' sched X Wt (ix2 r q) := by
  unfold out0_2
  rw [View.canon_unit_zero hz]
  simp only [View.ld_unit_zero (S := S5000x128) hz, View.ld_unit_zero (S := S128x128) hz]
  unfold k0_pay1
  exact Cert.LibBlockProduct.block_product dot_S5000x128_S128x128_S5000x128_1_0_0_1_n_n rfl rfl rfl rfl rfl rfl
    df hdf.f1 hdf.f2 hdf.f3 hdf.f4 hdf.f5 hdf.f6 none prec' sched _ _ X Wt p r q hx hw

/-- The printed index maps over the grid: the left operand's and the result's blocks are row block t, the weight
    matrix's block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is row block t of the whole product of the entry arrays. -/
theorem flushed_eq (df : DotDims S50000x128 S128x128 S50000x128) (hdf : Plain df) (prec' : Option ContractPrecision) (sched : HostSchedule) (c : Dev nD) (t : Fin cfg0.N) :
    (dat0 (F := Ideal) V c).flushed 2 t
      = ((cfg0.win 2).blk t).view.read (Elt Ideal) (FloatOps.dotGeneral (F := Ideal) (φ₁ := .f32) (φ₂ := .f32) df prec' sched (V c main_arg0 : FVec Ideal S50000x128 .f32) (V c main_arg2 : FVec Ideal S128x128 .f32)) := by
  show (cfg0.win 2).cut (grid0.coords t) ((dat0 (F := Ideal) V c).after 2 t) = _
  rw [after0_2]
  obtain ⟨e0, e1, e2, e3, e4, e5⟩ := idx_facts t
  have hN : cfg0.N = 10 := N_0
  have ht : t.val < 10 := hN ▸ t.isLt
  funext j
  obtain ⟨p, q, rfl⟩ : ∃ (p : Fin 5000) (q : Fin 128), j = ix2 p q := ⟨j 0, j 1, eq_ix2 j⟩
  have hr : 5000 * t.val + p.val < 50000 := by have := p.isLt; omega
  have eo : ((cfg0.win 2).blk t).view.emb (ix2 p q) = ix2 (⟨5000 * t.val + p.val, hr⟩ : Fin 50000) q := by
    funext a; apply Fin.ext
    match a with
    | ⟨0, _⟩ => show win0_2.index t (0 : Fin 2) * 5000 + 1 * p.val = 5000 * t.val + p.val; omega
    | ⟨1, _⟩ => show win0_2.index t (1 : Fin 2) * 128 + 1 * q.val = q.val; omega
  show out0_2 (F := Ideal) (iblk0 V c 0 t) (iblk0 V c 1 t) (ix2 p q)
      = FloatOps.dotGeneral (F := Ideal) (φ₁ := .f32) (φ₂ := .f32) df prec' sched (V c main_arg0 : FVec Ideal S50000x128 .f32) (V c main_arg2 : FVec Ideal S128x128 .f32) (((cfg0.win 2).blk t).view.emb (ix2 p q))
  rw [eo]
  refine stored_entry df hdf prec' sched _ _ _ _ p q _ (fun k => ?_) (fun k => ?_)
  · show V c main_arg0 (((cfg0.win 0).blk t).view.emb (ix2 p k)) = V c main_arg0 (ix2 (⟨5000 * t.val + p.val, hr⟩ : Fin 50000) k)
    refine congrArg (V c main_arg0) ?_
    funext a; apply Fin.ext
    match a with
    | ⟨0, _⟩ => show win0_0.index t (0 : Fin 2) * 5000 + 1 * p.val = 5000 * t.val + p.val; omega
    | ⟨1, _⟩ => show win0_0.index t (1 : Fin 2) * 128 + 1 * k.val = k.val; omega
  · show V c main_arg2 (((cfg0.win 1).blk t).view.emb (ix2 k q)) = V c main_arg2 (ix2 k q)
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega

/-- An index of the result is in point t's block iff its row is in rows 5000·t … 5000·t + 4999. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- The ten row blocks tile the result. -/
theorem cover (i : S50000x128.Idx) : ∃ t : Fin cfg0.N, (cfg0.win 2).flush t = true ∧ i ∈ ((cfg0.win 2).blk t).view.set := by
  have hN : cfg0.N = 10 := N_0
  have hi0 : (i 0).val < 50000 := (i 0).isLt
  have hi1 : (i 1).val < 128 := (i 1).isLt
  let t : Fin cfg0.N := ⟨(i 0).val / 5000, by rw [hN]; omega⟩
  obtain ⟨e0, e1, e2, e3, e4, e5⟩ := idx_facts t
  have tv : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the region is the whole product of the two entry arrays. -/
theorem region (df : DotDims S50000x128 S128x128 S50000x128) (hdf : Plain df) (prec' : Option ContractPrecision) (sched : HostSchedule) (c : Dev nD) :
    (dat0 (F := Ideal) V c).arrAt 2 cfg0.N = FloatOps.dotGeneral (F := Ideal) (φ₁ := .f32) (φ₂ := .f32) df prec' sched (V c main_arg0 : FVec Ideal S50000x128 .f32) (V c main_arg2 : FVec Ideal S128x128 .f32) :=
  (dat0 (F := Ideal) V c).arrAt_eq_of_cover 2 _ (fun t _ => flushed_eq V df hdf prec' sched c t) cover

end Cert.KernelIdeal.Dense0

end
-- ==== Proof.Dense2.lean ====
/-
  Region 2: a dense layer's product, computed block by block.

  The region walks the 50000 rows in ten blocks of 5000: at point t it multiplies rows 5000·t … 5000·t + 4999 of
  the left matrix by the whole weight matrix (into an accumulator that starts at zero) and writes the block back to the
  same rows of the result.  Over the extended reals an entry of a product is a sum over the contracted index that reads
  one row of the left operand only, so each written block is the matching row block of the whole product, and the ten
  blocks tile the result: the result array is the whole product of the two entry arrays.
-/
import proofs.«152018_j8220567405097_1_alg».proof.Proof.Gen.KernelIdeal.Frame
import proofs.«152018_j8220567405097_1_alg».proof.Proof.LibBlockProduct
import Idealize.ShloMosaic.Lib.ValueIdx
import Idealize.ShloMosaic.Lib.Pipeline.Value
import Idealize.ShloMosaic.PureOps.Ideal.Laws

set_option maxRecDepth 16384

noncomputable section

namespace Cert.KernelIdeal.Dense2

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The whole product the region's result is compared with: any dimension record with the plain axis lists. -/
structure Plain (df : DotDims S50000x128 S128x128 S50000x128) : Prop where
  f1 : df.lhsContracting = [1]
  f2 : df.rhsContracting = [0]
  f3 : df.lhsNonContracting = [0]
  f4 : df.rhsNonContracting = [1]
  f5 : df.lhsBatch = []
  f6 : df.rhsBatch = []

/-- One entry of the block the body stores: entry (p, q) of the block's product is entry (r, q) of the whole product,
    when row p of the left block is row r of the left matrix and the weight block is the weight matrix. -/
theorem stored_entry (df : DotDims S50000x128 S128x128 S50000x128) (hdf : Plain df) (prec' : Option ContractPrecision) (sched : HostSchedule)
    (x0 : Vec Ideal S5000x128 .f32) (x1 : Vec Ideal S128x128 .f32)
    (X : FVec Ideal S50000x128 .f32) (Wt : FVec Ideal S128x128 .f32) (p : Fin 5000) (q : Fin 128) (r : Fin 50000)
    (hx : ∀ k : Fin 128, x0 (ix2 p k) = X (ix2 r k)) (hw : ∀ k : Fin 128, x1 (ix2 k q) = Wt (ix2 k q)) :
    out2_2 (F := Ideal) x0 x1 (ix2 p q) = FloatOps.dotGeneral (F := Ideal) (φ₁ := .f32) (φ₂ := .f32) df prec' sched X Wt (ix2 r q) := by
  unfold out2_2
  rw [View.canon_unit_zero hz]
  simp only [View.ld_unit_zero (S := S5000x128) hz, View.ld_unit_zero (S := S128x128) hz]
  unfold k2_pay1
  simp only [shapeCast_self]
  exact Cert.LibBlockProduct.block_product dot_S5000x128_S128x128_S5000x128_1_0_0_1_n_n rfl rfl rfl rfl rfl rfl
    df hdf.f1 hdf.f2 hdf.f3 hdf.f4 hdf.f5 hdf.f6 none prec' sched _ _ X Wt p r q hx hw

/-- The printed index maps over the grid: the left operand's and the result's blocks are row block t, the weight
    matrix's block is the whole matrix. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point t writes back is row block t of the whole product of the entry arrays. -/
theorem flushed_eq (df : DotDims S50000x128 S128x128 S50000x128) (hdf : Plain df) (prec' : Option ContractPrecision) (sched : HostSchedule) (c : Dev nD) (t : Fin cfg2.N) :
    (dat2 (F := Ideal) V c).flushed 2 t
      = ((cfg2.win 2).blk t).view.read (Elt Ideal) (FloatOps.dotGeneral (F := Ideal) (φ₁ := .f32) (φ₂ := .f32) df prec' sched (V c main_v46 : FVec Ideal S50000x128 .f32) (V c main_arg4 : FVec Ideal S128x128 .f32)) := by
  show (cfg2.win 2).cut (grid2.coords t) ((dat2 (F := Ideal) V c).after 2 t) = _
  rw [after2_2]
  obtain ⟨e0, e1, e2, e3, e4, e5⟩ := idx_facts t
  have hN : cfg2.N = 10 := N_2
  have ht : t.val < 10 := hN ▸ t.isLt
  funext j
  obtain ⟨p, q, rfl⟩ : ∃ (p : Fin 5000) (q : Fin 128), j = ix2 p q := ⟨j 0, j 1, eq_ix2 j⟩
  have hr : 5000 * t.val + p.val < 50000 := by have := p.isLt; omega
  have eo : ((cfg2.win 2).blk t).view.emb (ix2 p q) = ix2 (⟨5000 * t.val + p.val, hr⟩ : Fin 50000) q := by
    funext a; apply Fin.ext
    match a with
    | ⟨0, _⟩ => show win2_2.index t (0 : Fin 2) * 5000 + 1 * p.val = 5000 * t.val + p.val; omega
    | ⟨1, _⟩ => show win2_2.index t (1 : Fin 2) * 128 + 1 * q.val = q.val; omega
  show out2_2 (F := Ideal) (iblk2 V c 0 t) (iblk2 V c 1 t) (ix2 p q)
      = FloatOps.dotGeneral (F := Ideal) (φ₁ := .f32) (φ₂ := .f32) df prec' sched (V c main_v46 : FVec Ideal S50000x128 .f32) (V c main_arg4 : FVec Ideal S128x128 .f32) (((cfg2.win 2).blk t).view.emb (ix2 p q))
  rw [eo]
  refine stored_entry df hdf prec' sched _ _ _ _ p q _ (fun k => ?_) (fun k => ?_)
  · show V c main_v46 (((cfg2.win 0).blk t).view.emb (ix2 p k)) = V c main_v46 (ix2 (⟨5000 * t.val + p.val, hr⟩ : Fin 50000) k)
    refine congrArg (V c main_v46) ?_
    funext a; apply Fin.ext
    match a with
    | ⟨0, _⟩ => show win2_0.index t (0 : Fin 2) * 5000 + 1 * p.val = 5000 * t.val + p.val; omega
    | ⟨1, _⟩ => show win2_0.index t (1 : Fin 2) * 128 + 1 * k.val = k.val; omega
  · show V c main_arg4 (((cfg2.win 1).blk t).view.emb (ix2 k q)) = V c main_arg4 (ix2 k q)
    refine congrArg (V c main_arg4) ?_
    funext a; apply Fin.ext
    match a with
    | ⟨0, _⟩ => show win2_1.index t (0 : Fin 2) * 128 + 1 * k.val = k.val; omega
    | ⟨1, _⟩ => show win2_1.index t (1 : Fin 2) * 128 + 1 * q.val = q.val; omega

/-- An index of the result is in point t's block iff its row is in rows 5000·t … 5000·t + 4999. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v47).slice (win2_2.rect t)).set ↔ _
  rw [View.set_slice_whole, Rect.mem_set_unit]
  exact Iff.rfl

/-- The ten row blocks tile the result. -/
theorem cover (i : S50000x128.Idx) : ∃ t : Fin cfg2.N, (cfg2.win 2).flush t = true ∧ i ∈ ((cfg2.win 2).blk t).view.set := by
  have hN : cfg2.N = 10 := N_2
  have hi0 : (i 0).val < 50000 := (i 0).isLt
  have hi1 : (i 1).val < 128 := (i 1).isLt
  let t : Fin cfg2.N := ⟨(i 0).val / 5000, by rw [hN]; omega⟩
  obtain ⟨e0, e1, e2, e3, e4, e5⟩ := idx_facts t
  have tv : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The result array after the region is the whole product of the two entry arrays. -/
theorem region (df : DotDims S50000x128 S128x128 S50000x128) (hdf : Plain df) (prec' : Option ContractPrecision) (sched : HostSchedule) (c : Dev nD) :
    (dat2 (F := Ideal) V c).arrAt 2 cfg2.N = FloatOps.dotGeneral (F := Ideal) (φ₁ := .f32) (φ₂ := .f32) df prec' sched (V c main_v46 : FVec Ideal S50000x128 .f32) (V c main_arg4 : FVec Ideal S128x128 .f32) :=
  (dat2 (F := Ideal) V c).arrAt_eq_of_cover 2 _ (fun t _ => flushed_eq V df hdf prec' sched c t) cover

end Cert.KernelIdeal.Dense2

end
-- ==== Proof.Dense4.lean ====
/-
  Region 4: a dense layer's product, computed block by block.

  The region walks the 50000 rows in ten blocks of 5000: at point t it multiplies rows 5000·t … 5000·t + 4999 of
  the left matrix by the whole weight matrix (into an accumulator that starts at zero) and writes the block back to the
  same rows of the result.  Over the extended reals an entry of a product is a sum over the contracted index that reads
  one row of the left operand only, so each written block is the matching row block of the whole product, and the ten
  blocks tile the result: the result array is the whole product of the two entry arrays.
-/
import proofs.«152018_j8220567405097_1_alg».proof.Proof.Gen.KernelIdeal.Frame
import proofs.«152018_j8220567405097_1_alg».proof.Proof.LibBlockProduct
import Idealize.ShloMosaic.Lib.ValueIdx
import Idealize.ShloMosaic.Lib.Pipeline.Value
import Idealize.ShloMosaic.PureOps.Ideal.Laws

set_option maxRecDepth 16384

noncomputable section

namespace Cert.KernelIdeal.Dense4

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The whole product the region's result is compared with: any dimension record with the plain axis lists. -/
structure Plain (df : DotDims S50000x128 S128x128 S50000x128) : Prop where
  f1 : df.lhsContracting = [1]
  f2 : df.rhsContracting = [0]
  f3 : df.lhsNonContracting = [0]
  f4 : df.rhsNonContracting = [1]
  f5 : df.lhsBatch = []
  f6 : df.rhsBatch = []

/-- One entry of the block the body stores: entry (p, q) of the block's product is entry (r, q) of the whole product,
    when row p of the left block is row r of the left matrix and the weight block is the weight matrix. -/
theorem stored_entry (df : DotDims S50000x128 S128x128 S50000x128) (hdf : Plain df) (prec' : Option ContractPrecision) (sched : HostSchedule)
    (x0 : Vec Ideal S5000x128 .f32) (x1 : Vec Ideal S128x128 .f32)
    (X : FVec Ideal S50000x128 .f32) (Wt : FVec Ideal S128x128 .f32) (p : Fin 5000) (q : Fin 128) (r : Fin 50000)
    (hx : ∀ k : Fin 128, x0 (ix2 p k) = X (ix2 r k)) (hw : ∀ k : Fin 128, x1 (ix2 k q) = Wt (ix2 k q)) :
    out4_2 (F := Ideal) x0 x1 (ix2 p q) = FloatOps.dotGeneral (F := Ideal) (φ₁ := .f32) (φ₂ := .f32) df prec' sched X Wt (ix2 r q) := by
  unfold out4_2
  rw [View.canon_unit_zero hz]
  simp only [View.ld_unit_zero (S := S5000x128) hz, View.ld_unit_zero (S := S128x128) hz]
  unfold k4_pay1
  simp only [shapeCast_self]
  exact Cert.LibBlockProduct.block_product dot_S5000x128_S128x128_S5000x128_1_0_0_1_n_n rfl rfl rfl rfl rfl rfl
    df hdf.f1 hdf.f2 hdf.f3 hdf.f4 hdf.f5 hdf.f6 none prec' sched _ _ X Wt p r q hx hw

/-- The printed index maps over the grid: the left operand's and the result's blocks are row block t, the weight
    matrix's block is the whole matrix. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- What point t writes back is row block t of the whole product of the entry arrays. -/
theorem flushed_eq (df : DotDims S50000x128 S128x128 S50000x128) (hdf : Plain df) (prec' : Option ContractPrecision) (sched : HostSchedule) (c : Dev nD) (t : Fin cfg4.N) :
    (dat4 (F := Ideal) V c).flushed 2 t
      = ((cfg4.win 2).blk t).view.read (Elt Ideal) (FloatOps.dotGeneral (F := Ideal) (φ₁ := .f32) (φ₂ := .f32) df prec' sched (V c main_v66 : FVec Ideal S50000x128 .f32) (V c main_arg6 : FVec Ideal S128x128 .f32)) := by
  show (cfg4.win 2).cut (grid4.coords t) ((dat4 (F := Ideal) V c).after 2 t) = _
  rw [after4_2]
  obtain ⟨e0, e1, e2, e3, e4, e5⟩ := idx_facts t
  have hN : cfg4.N = 10 := N_4
  have ht : t.val < 10 := hN ▸ t.isLt
  funext j
  obtain ⟨p, q, rfl⟩ : ∃ (p : Fin 5000) (q : Fin 128), j = ix2 p q := ⟨j 0, j 1, eq_ix2 j⟩
  have hr : 5000 * t.val + p.val < 50000 := by have := p.isLt; omega
  have eo : ((cfg4.win 2).blk t).view.emb (ix2 p q) = ix2 (⟨5000 * t.val + p.val, hr⟩ : Fin 50000) q := by
    funext a; apply Fin.ext
    match a with
    | ⟨0, _⟩ => show win4_2.index t (0 : Fin 2) * 5000 + 1 * p.val = 5000 * t.val + p.val; omega
    | ⟨1, _⟩ => show win4_2.index t (1 : Fin 2) * 128 + 1 * q.val = q.val; omega
  show out4_2 (F := Ideal) (iblk4 V c 0 t) (iblk4 V c 1 t) (ix2 p q)
      = FloatOps.dotGeneral (F := Ideal) (φ₁ := .f32) (φ₂ := .f32) df prec' sched (V c main_v66 : FVec Ideal S50000x128 .f32) (V c main_arg6 : FVec Ideal S128x128 .f32) (((cfg4.win 2).blk t).view.emb (ix2 p q))
  rw [eo]
  refine stored_entry df hdf prec' sched _ _ _ _ p q _ (fun k => ?_) (fun k => ?_)
  · show V c main_v66 (((cfg4.win 0).blk t).view.emb (ix2 p k)) = V c main_v66 (ix2 (⟨5000 * t.val + p.val, hr⟩ : Fin 50000) k)
    refine congrArg (V c main_v66) ?_
    funext a; apply Fin.ext
    match a with
    | ⟨0, _⟩ => show win4_0.index t (0 : Fin 2) * 5000 + 1 * p.val = 5000 * t.val + p.val; omega
    | ⟨1, _⟩ => show win4_0.index t (1 : Fin 2) * 128 + 1 * k.val = k.val; omega
  · show V c main_arg6 (((cfg4.win 1).blk t).view.emb (ix2 k q)) = V c main_arg6 (ix2 k q)
    refine congrArg (V c main_arg6) ?_
    funext a; apply Fin.ext
    match a with
    | ⟨0, _⟩ => show win4_1.index t (0 : Fin 2) * 128 + 1 * k.val = k.val; omega
    | ⟨1, _⟩ => show win4_1.index t (1 : Fin 2) * 128 + 1 * q.val = q.val; omega

/-- An index of the result is in point t's block iff its row is in rows 5000·t … 5000·t + 4999. -/
theorem mem_blk (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v67).slice (win4_2.rect t)).set ↔ _
  rw [View.set_slice_whole, Rect.mem_set_unit]
  exact Iff.rfl

/-- The ten row blocks tile the result. -/
theorem cover (i : S50000x128.Idx) : ∃ t : Fin cfg4.N, (cfg4.win 2).flush t = true ∧ i ∈ ((cfg4.win 2).blk t).view.set := by
  have hN : cfg4.N = 10 := N_4
  have hi0 : (i 0).val < 50000 := (i 0).isLt
  have hi1 : (i 1).val < 128 := (i 1).isLt
  let t : Fin cfg4.N := ⟨(i 0).val / 5000, by rw [hN]; omega⟩
  obtain ⟨e0, e1, e2, e3, e4, e5⟩ := idx_facts t
  have tv : t.val = (i 0).val / 5000 := rfl
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The result array after the region is the whole product of the two entry arrays. -/
theorem region (df : DotDims S50000x128 S128x128 S50000x128) (hdf : Plain df) (prec' : Option ContractPrecision) (sched : HostSchedule) (c : Dev nD) :
    (dat4 (F := Ideal) V c).arrAt 2 cfg4.N = FloatOps.dotGeneral (F := Ideal) (φ₁ := .f32) (φ₂ := .f32) df prec' sched (V c main_v66 : FVec Ideal S50000x128 .f32) (V c main_arg6 : FVec Ideal S128x128 .f32) :=
  (dat4 (F := Ideal) V c).arrAt_eq_of_cover 2 _ (fun t _ => flushed_eq V df hdf prec' sched c t) cover

end Cert.KernelIdeal.Dense4

end
-- ==== Proof.Dense6.lean ====
/-
  Region 6: a dense layer's product, computed block by block.

  The region walks the 50000 rows in ten blocks of 5000: at point t it multiplies rows 5000·t … 5000·t + 4999 of
  the left matrix by the whole weight matrix (into an accumulator that starts at zero) and writes the block back to the
  same rows of the result.  Over the extended reals an entry of a product is a sum over the contracted index that reads
  one row of the left operand only, so each written block is the matching row block of the whole product, and the ten
  blocks tile the result: the result array is the whole product of the two entry arrays.
-/
import proofs.«152018_j8220567405097_1_alg».proof.Proof.Gen.KernelIdeal.Frame
import proofs.«152018_j8220567405097_1_alg».proof.Proof.LibBlockProduct
import Idealize.ShloMosaic.Lib.ValueIdx
import Idealize.ShloMosaic.Lib.Pipeline.Value
import Idealize.ShloMosaic.PureOps.Ideal.Laws

set_option maxRecDepth 16384

noncomputable section

namespace Cert.KernelIdeal.Dense6

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The whole product the region's result is compared with: any dimension record with the plain axis lists. -/
structure Plain (df : DotDims S50000x128 S128x64 S50000x64) : Prop where
  f1 : df.lhsContracting = [1]
  f2 : df.rhsContracting = [0]
  f3 : df.lhsNonContracting = [0]
  f4 : df.rhsNonContracting = [1]
  f5 : df.lhsBatch = []
  f6 : df.rhsBatch = []

/-- One entry of the block the body stores: entry (p, q) of the block's product is entry (r, q) of the whole product,
    when row p of the left block is row r of the left matrix and the weight block is the weight matrix. -/
theorem stored_entry (df : DotDims S50000x128 S128x64 S50000x64) (hdf : Plain df) (prec' : Option ContractPrecision) (sched : HostSchedule)
    (x0 : Vec Ideal S5000x128 .f32) (x1 : Vec Ideal S128x64 .f32)
    (X : FVec Ideal S50000x128 .f32) (Wt : FVec Ideal S128x64 .f32) (p : Fin 5000) (q : Fin 64) (r : Fin 50000)
    (hx : ∀ k : Fin 128, x0 (ix2 p k) = X (ix2 r k)) (hw : ∀ k : Fin 128, x1 (ix2 k q) = Wt (ix2 k q)) :
    out6_2 (F := Ideal) x0 x1 (ix2 p q) = FloatOps.dotGeneral (F := Ideal) (φ₁ := .f32) (φ₂ := .f32) df prec' sched X Wt (ix2 r q) := by
  unfold out6_2
  rw [View.canon_unit_zero hz]
  simp only [View.ld_unit_zero (S := S5000x128) hz, View.ld_unit_zero (S := S128x64) hz]
  unfold k6_pay1
  simp only [shapeCast_self]
  exact Cert.LibBlockProduct.block_product dot_S5000x128_S128x64_S5000x64_1_0_0_1_n_n rfl rfl rfl rfl rfl rfl
    df hdf.f1 hdf.f2 hdf.f3 hdf.f4 hdf.f5 hdf.f6 none prec' sched _ _ X Wt p r q hx hw

/-- The printed index maps over the grid: the left operand's and the result's blocks are row block t, the weight
    matrix's block is the whole matrix. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

variable (V : (c : Dev nD) → (b : Ref sig .tc) → Buf (Elt Ideal) ((c : Thread nD τ).loc b))

/-- What point t writes back is row block t of the whole product of the entry arrays. -/
theorem flushed_eq (df : DotDims S50000x128 S128x64 S50000x64) (hdf : Plain df) (prec' : Option ContractPrecision) (sched : HostSchedule) (c : Dev nD) (t : Fin cfg6.N) :
    (dat6 (F := Ideal) V c).flushed 2 t
      = ((cfg6.win 2).blk t).view.read (Elt Ideal) (FloatOps.dotGeneral (F := Ideal) (φ₁ := .f32) (φ₂ := .f32) df prec' sched (V c main_v86 : FVec Ideal S50000x128 .f32) (V c main_arg8 : FVec Ideal S128x64 .f32)) := by
  show (cfg6.win 2).cut (grid6.coords t) ((dat6 (F := Ideal) V c).after 2 t) = _
  rw [after6_2]
  obtain ⟨e0, e1, e2, e3, e4, e5⟩ := idx_facts t
  have hN : cfg6.N = 10 := N_6
  have ht : t.val < 10 := hN ▸ t.isLt
  funext j
  obtain ⟨p, q, rfl⟩ : ∃ (p : Fin 5000) (q : Fin 64), j = ix2 p q := ⟨j 0, j 1, eq_ix2 j⟩
  have hr : 5000 * t.val + p.val < 50000 := by have := p.isLt; omega
  have eo : ((cfg6.win 2).blk t).view.emb (ix2 p q) = ix2 (⟨5000 * t.val + p.val, hr⟩ : Fin 50000) q := by
    funext a; apply Fin.ext
    match a with
    | ⟨0, _⟩ => show win6_2.index t (0 : Fin 2) * 5000 + 1 * p.val = 5000 * t.val + p.val; omega
    | ⟨1, _⟩ => show win6_2.index t (1 : Fin 2) * 64 + 1 * q.val = q.val; omega
  show out6_2 (F := Ideal) (iblk6 V c 0 t) (iblk6 V c 1 t) (ix2 p q)
      = FloatOps.dotGeneral (F := Ideal) (φ₁ := .f32) (φ₂ := .f32) df prec' sched (V c main_v86 : FVec Ideal S50000x128 .f32) (V c main_arg8 : FVec Ideal S128x64 .f32) (((cfg6.win 2).blk t).view.emb (ix2 p q))
  rw [eo]
  refine stored_entry df hdf prec' sched _ _ _ _ p q _ (fun k => ?_) (fun k => ?_)
  · show V c main_v86 (((cfg6.win 0).blk t).view.emb (ix2 p k)) = V c main_v86 (ix2 (⟨5000 * t.val + p.val, hr⟩ : Fin 50000) k)
    refine congrArg (V c main_v86) ?_
    funext a; apply Fin.ext
    match a with
    | ⟨0, _⟩ => show win6_0.index t (0 : Fin 2) * 5000 + 1 * p.val = 5000 * t.val + p.val; omega
    | ⟨1, _⟩ => show win6_0.index t (1 : Fin 2) * 128 + 1 * k.val = k.val; omega
  · show V c main_arg8 (((cfg6.win 1).blk t).view.emb (ix2 k q)) = V c main_arg8 (ix2 k q)
    refine congrArg (V c main_arg8) ?_
    funext a; apply Fin.ext
    match a with
    | ⟨0, _⟩ => show win6_1.index t (0 : Fin 2) * 128 + 1 * k.val = k.val; omega
    | ⟨1, _⟩ => show win6_1.index t (1 : Fin 2) * 64 + 1 * q.val = q.val; omega

/-- An index of the result is in point t's block iff its row is in rows 5000·t … 5000·t + 4999. -/
theorem mem_blk (t : Fin cfg6.N) (i : S50000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v87).slice (win6_2.rect t)).set ↔ _
  rw [View.set_slice_whole, Rect.mem_set_unit]
  exact Iff.rfl

/-- The ten row blocks tile the result. -/
theorem cover (i : S50000x64.Idx) : ∃ t : Fin cfg6.N, (cfg6.win 2).flush t = true ∧ i ∈ ((cfg6.win 2).blk t).view.set := by
  have hN : cfg6.N = 10 := N_6
  have hi0 : (i 0).val < 50000 := (i 0).isLt
  have hi1 : (i 1).val < 64 := (i 1).isLt
  let t : Fin cfg6.N := ⟨(i 0).val / 5000, by rw [hN]; omega⟩
  obtain ⟨e0, e1, e2, e3, e4, e5⟩ := idx_facts t
  have tv : t.val = (i 0).val / 5000 := rfl
  refine ⟨t, flush6_2 t, ?_⟩
  rw [mem_blk]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 64 ≤ (i 1).val ∧ (i 1).val < win6_2.index t (1 : Fin 2) * 64 + 64; omega

/-- The result array after the region is the whole product of the two entry arrays. -/
theorem region (df : DotDims S50000x128 S128x64 S50000x64) (hdf : Plain df) (prec' : Option ContractPrecision) (sched : HostSchedule) (c : Dev nD) :
    (dat6 (F := Ideal) V c).arrAt 2 cfg6.N = FloatOps.dotGeneral (F := Ideal) (φ₁ := .f32) (φ₂ := .f32) df prec' sched (V c main_v86 : FVec Ideal S50000x128 .f32) (V c main_arg8 : FVec Ideal S128x64 .f32) :=
  (dat6 (F := Ideal) V c).arrAt_eq_of_cover 2 _ (fun t _ => flushed_eq V df hdf prec' sched c t) cover

end Cert.KernelIdeal.Dense6

end
-- ==== Proof.NormLemmas.lean ====
/-
  Small lemmas shared by the per-node stages of the graph convolution: the zero offsets of a whole-block access; a row
  vector [1, C] broadcast to [N, C] read at an index (p, q), which is the row's entry (0, q); the reciprocal square root
  of a vector at an index; and the two per-node arrays read at an index whose column is known.
-/
import proofs.«152018_j8220567405097_1_alg».proof.Proof.Spec
import Idealize.ShloMosaic.Lib.ValueIdx
import Idealize.ShloMosaic.Lib.Pipeline.Value

noncomputable section

namespace Cert.KernelIdeal.NormRegion

open Idealize.ShloMosaic Idealize.ShloMosaic.ValueIdx

/-- The offsets of a whole-block access are zero on both axes. -/
theorem zero_offsets : (![0, 0] : Fin 2 → Nat) = fun _ => 0 := funext fun a => by fin_cases a <;> rfl

/-- A row vector [1, C] broadcast along the rows to [N, C], read at (p, q), is the row's entry at (0, q). -/
theorem broadcastRow_apply {α : Type} {N C : ℕ} (v : (⟨2, ![1, C]⟩ : Shape).Idx → α)
    (h : (⟨2, ![1, C]⟩ : Shape).Broadcasts ⟨2, ![N, C]⟩) (p : Fin N) (q : Fin C) :
    broadcastTo ⟨2, ![N, C]⟩ v h (ix2 p q) = v (ix2 0 q) := by
  refine broadcastTo_apply v h (ix2 p q) (ix2 0 q) (fun a => ?_)
  match a with
  | ⟨0, _⟩ => rfl
  | ⟨1, _⟩ =>
    show q.val = if C = 1 then 0 else q.val
    split
    · have := q.isLt; omega
    · rfl

/-- The reciprocal square root of a vector at an index is the reciprocal square root of the entry. -/
theorem rsqrt_apply {s : Shape} (x : FVec Ideal s .f32) (i : s.Idx) : rsqrt x i = Ideal.rsqrt (x i) := rfl

/-- The aggregate plus the bias row, at an index whose column is q, reads the row at (0, q). -/
theorem addRow_col {N C : ℕ} (agg : (⟨2, ![N, C]⟩ : Shape).Idx → EReal) (b : (⟨2, ![1, C]⟩ : Shape).Idx → EReal)
    (i : (⟨2, ![N, C]⟩ : Shape).Idx) (q : Fin C) (h : i 1 = q) :
    Cert.GcnSpec.addRow agg b i = agg i + b (ix2 0 q) := by
  subst h; rfl

/-- The normalised, rectified array, at an index whose column is q, reads the five rows at (0, q). -/
theorem normRelu_col {N C : ℕ} (agg : (⟨2, ![N, C]⟩ : Shape).Idx → EReal) (b g be mu var : (⟨2, ![1, C]⟩ : Shape).Idx → EReal)
    (i : (⟨2, ![N, C]⟩ : Shape).Idx) (q : Fin C) (h : i 1 = q) :
    Cert.GcnSpec.normRelu agg b g be mu var i
      = Cert.GcnSpec.normReluEntry (agg i) (b (ix2 0 q)) (g (ix2 0 q)) (be (ix2 0 q)) (mu (ix2 0 q)) (var (ix2 0 q)) := by
  subst h; rfl

end Cert.KernelIdeal.NormRegion

end
-- ==== Proof.Norm1.lean ====
/-
  The first layer's batch normalisation and rectification: every row block of the [50000, 128] aggregate is shifted by
  the bias row, centred by the mean row, scaled by the reciprocal square root of the variance row plus ε and by the
  scale row, shifted by the shift row and clamped below at zero.  After the ten row blocks are written back the output
  array is that function of the region's six input arrays, entry by entry.
-/
import proofs.«152018_j8220567405097_1_alg».proof.Proof.Gen.KernelIdeal.Frame
import proofs.«152018_j8220567405097_1_alg».proof.Proof.Spec
import proofs.«152018_j8220567405097_1_alg».proof.Proof.NormLemmas
import Idealize.ShloMosaic.Lib.ValueIdx
import Idealize.ShloMosaic.Lib.Pipeline.Value
import Idealize.ShloMosaic.PureOps.Ideal.Laws

set_option maxRecDepth 16384

noncomputable section

namespace Cert.KernelIdeal.NormRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's result at an entry (p, q) of a row block: the normalised, rectified value of the block's entry and of
    the five rows' entries (0, q). -/
theorem out1_apply (x0 : Vec Ideal S5000x128 .f32) (x1 x2 x3 x4 x5 : Vec Ideal S1x128 .f32) (p : Fin 5000) (q : Fin 128) :
    Gen.out1_6 x0 x1 x2 x3 x4 x5 (ix2 p q)
      = Cert.GcnSpec.normReluEntry (x0 (ix2 p q)) (x1 (ix2 0 q)) (x2 (ix2 0 q)) (x3 (ix2 0 q)) (x4 (ix2 0 q)) (x5 (ix2 0 q)) := by
  unfold Gen.out1_6
  rw [View.canon_unit_zero zero_offsets]
  simp only [View.ld_unit_zero (S := S5000x128) zero_offsets, View.ld_unit_zero (S := S1x128) zero_offsets]
  unfold Gen.k1_pay1
  simp only [shapeCast_self, maximumf_apply, addf_apply, mulf_apply, subf_apply, broadcast_apply, broadcastRow_apply,
    rsqrt_apply]
  rfl

/-- The printed index maps over the ten grid points: the aggregate's and the output's row block is the point's own,
    column block 0; each row vector's block is (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The aggregate's block at point t, at (p, q), is the aggregate at row t·5000 + p, column q: the same array index as
    the output block's. -/
theorem iblk1_0_apply (c : Dev nD) (t : Fin cfg1.N) (p : Fin 5000) (q : Fin 128) :
    Gen.iblk1 V c 0 t (ix2 p q) = V c main_v40 (((cfg1.win 6).blk t).view.emb (ix2 p q)) := by
  obtain ⟨e0, e1, -, -, -, -, -, -, -, -, -, -, e12, e13⟩ := idx_facts1 t
  show V c main_v40 (((cfg1.win 0).blk t).view.emb (ix2 p q)) = V c main_v40 (((cfg1.win 6).blk t).view.emb (ix2 p q))
  refine congrArg (V c main_v40) (funext fun a => Fin.ext ?_)
  match a with
  | ⟨0, _⟩ => show win1_0.index t (0 : Fin 2) * 5000 + 1 * p.val = win1_6.index t (0 : Fin 2) * 5000 + 1 * p.val; omega
  | ⟨1, _⟩ => show win1_0.index t (1 : Fin 2) * 128 + 1 * q.val = win1_6.index t (1 : Fin 2) * 128 + 1 * q.val; omega

/-- The bias row's block at any point, at (0, q), is the row's entry (0, q). -/
theorem iblk1_1_apply (c : Dev nD) (t : Fin cfg1.N) (q : Fin 128) :
    Gen.iblk1 V c 1 t (ix2 0 q) = V c main_v41 (ix2 0 q) := by
  obtain ⟨-, -, e2, e3, e4, e5, e6, e7, e8, e9, e10, e11, -, -⟩ := idx_facts1 t
  show V c main_v41 (((cfg1.win 1).blk t).view.emb (ix2 0 q)) = V c main_v41 (ix2 0 q)
  refine congrArg (V c main_v41) (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-- The scale row's block at any point, at (0, q), is the row's entry (0, q). -/
theorem iblk1_2_apply (c : Dev nD) (t : Fin cfg1.N) (q : Fin 128) :
    Gen.iblk1 V c 2 t (ix2 0 q) = V c main_v42 (ix2 0 q) := by
  obtain ⟨-, -, e2, e3, e4, e5, e6, e7, e8, e9, e10, e11, -, -⟩ := idx_facts1 t
  show V c main_v42 (((cfg1.win 2).blk t).view.emb (ix2 0 q)) = V c main_v42 (ix2 0 q)
  refine congrArg (V c main_v42) (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- The shift row's block at any point, at (0, q), is the row's entry (0, q). -/
theorem iblk1_3_apply (c : Dev nD) (t : Fin cfg1.N) (q : Fin 128) :
    Gen.iblk1 V c 3 t (ix2 0 q) = V c main_v43 (ix2 0 q) := by
  obtain ⟨-, -, e2, e3, e4, e5, e6, e7, e8, e9, e10, e11, -, -⟩ := idx_facts1 t
  show V c main_v43 (((cfg1.win 3).blk t).view.emb (ix2 0 q)) = V c main_v43 (ix2 0 q)
  refine congrArg (V c main_v43) (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- The mean row's block at any point, at (0, q), is the row's entry (0, q). -/
theorem iblk1_4_apply (c : Dev nD) (t : Fin cfg1.N) (q : Fin 128) :
    Gen.iblk1 V c 4 t (ix2 0 q) = V c main_v44 (ix2 0 q) := by
  obtain ⟨-, -, e2, e3, e4, e5, e6, e7, e8, e9, e10, e11, -, -⟩ := idx_facts1 t
  show V c main_v44 (((cfg1.win 4).blk t).view.emb (ix2 0 q)) = V c main_v44 (ix2 0 q)
  refine congrArg (V c main_v44) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- The variance row's block at any point, at (0, q), is the row's entry (0, q). -/
theorem iblk1_5_apply (c : Dev nD) (t : Fin cfg1.N) (q : Fin 128) :
    Gen.iblk1 V c 5 t (ix2 0 q) = V c main_v45 (ix2 0 q) := by
  obtain ⟨-, -, e2, e3, e4, e5, e6, e7, e8, e9, e10, e11, -, -⟩ := idx_facts1 t
  show V c main_v45 (((cfg1.win 5).blk t).view.emb (ix2 0 q)) = V c main_v45 (ix2 0 q)
  refine congrArg (V c main_v45) (funext fun a => Fin.ext ?_)
  match a with
  | ⟨0, _⟩ => show win1_5.index t (0 : Fin 2) * 1 + 1 * 0 = 0; omega
  | ⟨1, _⟩ => show win1_5.index t (1 : Fin 2) * 128 + 1 * q.val = q.val; omega

/-- The output block's array index at (p, q) has column q. -/
theorem emb1_col (t : Fin cfg1.N) (p : Fin 5000) (q : Fin 128) :
    ((((cfg1.win 6).blk t).view.emb (ix2 p q) : S50000x128.Idx) 1).val = q.val := by
  obtain ⟨-, -, -, -, -, -, -, -, -, -, -, -, e12, e13⟩ := idx_facts1 t
  show win1_6.index t (1 : Fin 2) * 128 + 1 * q.val = q.val
  omega

/-- What point t writes back is block t of the normalised, rectified array. -/
theorem flushed1_eq (c : Dev nD) (t : Fin cfg1.N) :
    (Gen.dat1 (F := Ideal) V c).flushed 6 t
      = ((cfg1.win 6).blk t).view.read (Elt Ideal)
          (Cert.GcnSpec.normRelu (N := 50000) (C := 128) (V c main_v40) (V c main_v41) (V c main_v42) (V c main_v43) (V c main_v44) (V c main_v45)) := by
  show (cfg1.win 6).cut (grid1.coords t) ((Gen.dat1 V c).after 6 t) = _
  rw [Gen.after1_6]
  funext j
  obtain ⟨p, q, rfl⟩ : ∃ (p : Fin 5000) (q : Fin 128), j = ix2 p q := ⟨j 0, j 1, eq_ix2 j⟩
  show Gen.out1_6 (Gen.iblk1 V c 0 t) (Gen.iblk1 V c 1 t) (Gen.iblk1 V c 2 t) (Gen.iblk1 V c 3 t) (Gen.iblk1 V c 4 t) (Gen.iblk1 V c 5 t) (ix2 p q)
    = Cert.GcnSpec.normRelu (N := 50000) (C := 128) (V c main_v40) (V c main_v41) (V c main_v42) (V c main_v43) (V c main_v44) (V c main_v45) (((cfg1.win 6).blk t).view.emb (ix2 p q))
  rw [out1_apply, iblk1_0_apply, iblk1_1_apply, iblk1_2_apply, iblk1_3_apply, iblk1_4_apply, iblk1_5_apply]
  exact (normRelu_col (N := 50000) (C := 128) (V c main_v40) (V c main_v41) (V c main_v42) (V c main_v43) (V c main_v44) (V c main_v45) _ q
    (Fin.ext (emb1_col t p q))).symm

/-- An index of the output array is in point t's block iff each coordinate is in the block's range on its axis. -/
theorem mem_blk1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v46).slice (win1_6.rect t)).set ↔ _
  rw [View.set_slice_whole, Rect.mem_set_unit]
  exact Iff.rfl

/-- Every index of the output array is in the block of the point its row falls in: row r is in block r / 5000. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := Gen.N_1
  let t : Fin cfg1.N := ⟨(i 0).val / 5000, by rw [hN]; omega⟩
  obtain ⟨-, -, -, -, -, -, -, -, -, -, -, -, e12, e13⟩ := idx_facts1 t
  have ht : t.val = (i 0).val / 5000 := rfl
  refine ⟨t, Gen.flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- After the region, the output array is the normalised, rectified array of the region's six inputs, entry by entry. -/
theorem region1 (c : Dev nD) :
    (Gen.dat1 (F := Ideal) V c).arrAt 6 cfg1.N
      = Cert.GcnSpec.normRelu (N := 50000) (C := 128) (V c main_v40) (V c main_v41) (V c main_v42) (V c main_v43) (V c main_v44) (V c main_v45) :=
  (Gen.dat1 (F := Ideal) V c).arrAt_eq_of_cover 6 _ (fun t _ => flushed1_eq V c t) cover1

end Cert.KernelIdeal.NormRegion

end
-- ==== Proof.Norm3.lean ====
/-
  The second layer's batch normalisation and rectification: every row block of the [50000, 128] aggregate is shifted by
  the bias row, centred by the mean row, scaled by the reciprocal square root of the variance row plus ε and by the
  scale row, shifted by the shift row and clamped below at zero.  After the ten row blocks are written back the output
  array is that function of the region's six input arrays, entry by entry.
-/
import proofs.«152018_j8220567405097_1_alg».proof.Proof.Gen.KernelIdeal.Frame
import proofs.«152018_j8220567405097_1_alg».proof.Proof.Spec
import proofs.«152018_j8220567405097_1_alg».proof.Proof.NormLemmas
import Idealize.ShloMosaic.Lib.ValueIdx
import Idealize.ShloMosaic.Lib.Pipeline.Value
import Idealize.ShloMosaic.PureOps.Ideal.Laws

set_option maxRecDepth 16384

noncomputable section

namespace Cert.KernelIdeal.NormRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's result at an entry (p, q) of a row block: the normalised, rectified value of the block's entry and of
    the five rows' entries (0, q). -/
theorem out3_apply (x0 : Vec Ideal S5000x128 .f32) (x1 x2 x3 x4 x5 : Vec Ideal S1x128 .f32) (p : Fin 5000) (q : Fin 128) :
    Gen.out3_6 x0 x1 x2 x3 x4 x5 (ix2 p q)
      = Cert.GcnSpec.normReluEntry (x0 (ix2 p q)) (x1 (ix2 0 q)) (x2 (ix2 0 q)) (x3 (ix2 0 q)) (x4 (ix2 0 q)) (x5 (ix2 0 q)) := by
  unfold Gen.out3_6
  rw [View.canon_unit_zero zero_offsets]
  simp only [View.ld_unit_zero (S := S5000x128) zero_offsets, View.ld_unit_zero (S := S1x128) zero_offsets]
  unfold Gen.k3_pay1
  simp only [shapeCast_self, maximumf_apply, addf_apply, mulf_apply, subf_apply, broadcast_apply, broadcastRow_apply,
    rsqrt_apply]
  rfl

/-- The printed index maps over the ten grid points: the aggregate's and the output's row block is the point's own,
    column block 0; each row vector's block is (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The aggregate's block at point t, at (p, q), is the aggregate at row t·5000 + p, column q: the same array index as
    the output block's. -/
theorem iblk3_0_apply (c : Dev nD) (t : Fin cfg3.N) (p : Fin 5000) (q : Fin 128) :
    Gen.iblk3 V c 0 t (ix2 p q) = V c main_v60 (((cfg3.win 6).blk t).view.emb (ix2 p q)) := by
  obtain ⟨e0, e1, -, -, -, -, -, -, -, -, -, -, e12, e13⟩ := idx_facts3 t
  show V c main_v60 (((cfg3.win 0).blk t).view.emb (ix2 p q)) = V c main_v60 (((cfg3.win 6).blk t).view.emb (ix2 p q))
  refine congrArg (V c main_v60) (funext fun a => Fin.ext ?_)
  match a with
  | ⟨0, _⟩ => show win3_0.index t (0 : Fin 2) * 5000 + 1 * p.val = win3_6.index t (0 : Fin 2) * 5000 + 1 * p.val; omega
  | ⟨1, _⟩ => show win3_0.index t (1 : Fin 2) * 128 + 1 * q.val = win3_6.index t (1 : Fin 2) * 128 + 1 * q.val; omega

/-- The bias row's block at any point, at (0, q), is the row's entry (0, q). -/
theorem iblk3_1_apply (c : Dev nD) (t : Fin cfg3.N) (q : Fin 128) :
    Gen.iblk3 V c 1 t (ix2 0 q) = V c main_v61 (ix2 0 q) := by
  obtain ⟨-, -, e2, e3, e4, e5, e6, e7, e8, e9, e10, e11, -, -⟩ := idx_facts3 t
  show V c main_v61 (((cfg3.win 1).blk t).view.emb (ix2 0 q)) = V c main_v61 (ix2 0 q)
  refine congrArg (V c main_v61) (funext fun a => Fin.ext ?_)
  match a with
  | ⟨0, _⟩ => show win3_1.index t (0 : Fin 2) * 1 + 1 * 0 = 0; omega
  | ⟨1, _⟩ => show win3_1.index t (1 : Fin 2) * 128 + 1 * q.val = q.val; omega

/-- The scale row's block at any point, at (0, q), is the row's entry (0, q). -/
theorem iblk3_2_apply (c : Dev nD) (t : Fin cfg3.N) (q : Fin 128) :
    Gen.iblk3 V c 2 t (ix2 0 q) = V c main_v62 (ix2 0 q) := by
  obtain ⟨-, -, e2, e3, e4, e5, e6, e7, e8, e9, e10, e11, -, -⟩ := idx_facts3 t
  show V c main_v62 (((cfg3.win 2).blk t).view.emb (ix2 0 q)) = V c main_v62 (ix2 0 q)
  refine congrArg (V c main_v62) (funext fun a => Fin.ext ?_)
  match a with
  | ⟨0, _⟩ => show win3_2.index t (0 : Fin 2) * 1 + 1 * 0 = 0; omega
  | ⟨1, _⟩ => show win3_2.index t (1 : Fin 2) * 128 + 1 * q.val = q.val; omega

/-- The shift row's block at any point, at (0, q), is the row's entry (0, q). -/
theorem iblk3_3_apply (c : Dev nD) (t : Fin cfg3.N) (q : Fin 128) :
    Gen.iblk3 V c 3 t (ix2 0 q) = V c main_v63 (ix2 0 q) := by
  obtain ⟨-, -, e2, e3, e4, e5, e6, e7, e8, e9, e10, e11, -, -⟩ := idx_facts3 t
  show V c main_v63 (((cfg3.win 3).blk t).view.emb (ix2 0 q)) = V c main_v63 (ix2 0 q)
  refine congrArg (V c main_v63) (funext fun a => Fin.ext ?_)
  match a with
  | ⟨0, _⟩ => show win3_3.index t (0 : Fin 2) * 1 + 1 * 0 = 0; omega
  | ⟨1, _⟩ => show win3_3.index t (1 : Fin 2) * 128 + 1 * q.val = q.val; omega

/-- The mean row's block at any point, at (0, q), is the row's entry (0, q). -/
theorem iblk3_4_apply (c : Dev nD) (t : Fin cfg3.N) (q : Fin 128) :
    Gen.iblk3 V c 4 t (ix2 0 q) = V c main_v64 (ix2 0 q) := by
  obtain ⟨-, -, e2, e3, e4, e5, e6, e7, e8, e9, e10, e11, -, -⟩ := idx_facts3 t
  show V c main_v64 (((cfg3.win 4).blk t).view.emb (ix2 0 q)) = V c main_v64 (ix2 0 q)
  refine congrArg (V c main_v64) (funext fun a => Fin.ext ?_)
  match a with
  | ⟨0, _⟩ => show win3_4.index t (0 : Fin 2) * 1 + 1 * 0 = 0; omega
  | ⟨1, _⟩ => show win3_4.index t (1 : Fin 2) * 128 + 1 * q.val = q.val; omega

/-- The variance row's block at any point, at (0, q), is the row's entry (0, q). -/
theorem iblk3_5_apply (c : Dev nD) (t : Fin cfg3.N) (q : Fin 128) :
    Gen.iblk3 V c 5 t (ix2 0 q) = V c main_v65 (ix2 0 q) := by
  obtain ⟨-, -, e2, e3, e4, e5, e6, e7, e8, e9, e10, e11, -, -⟩ := idx_facts3 t
  show V c main_v65 (((cfg3.win 5).blk t).view.emb (ix2 0 q)) = V c main_v65 (ix2 0 q)
  refine congrArg (V c main_v65) (funext fun a => Fin.ext ?_)
  match a with
  | ⟨0, _⟩ => show win3_5.index t (0 : Fin 2) * 1 + 1 * 0 = 0; omega
  | ⟨1, _⟩ => show win3_5.index t (1 : Fin 2) * 128 + 1 * q.val = q.val; omega

/-- The output block's array index at (p, q) has column q. -/
theorem emb3_col (t : Fin cfg3.N) (p : Fin 5000) (q : Fin 128) :
    ((((cfg3.win 6).blk t).view.emb (ix2 p q) : S50000x128.Idx) 1).val = q.val := by
  obtain ⟨-, -, -, -, -, -, -, -, -, -, -, -, e12, e13⟩ := idx_facts3 t
  show win3_6.index t (1 : Fin 2) * 128 + 1 * q.val = q.val
  omega

/-- What point t writes back is block t of the normalised, rectified array. -/
theorem flushed3_eq (c : Dev nD) (t : Fin cfg3.N) :
    (Gen.dat3 (F := Ideal) V c).flushed 6 t
      = ((cfg3.win 6).blk t).view.read (Elt Ideal)
          (Cert.GcnSpec.normRelu (N := 50000) (C := 128) (V c main_v60) (V c main_v61) (V c main_v62) (V c main_v63) (V c main_v64) (V c main_v65)) := by
  show (cfg3.win 6).cut (grid3.coords t) ((Gen.dat3 V c).after 6 t) = _
  rw [Gen.after3_6]
  funext j
  obtain ⟨p, q, rfl⟩ : ∃ (p : Fin 5000) (q : Fin 128), j = ix2 p q := ⟨j 0, j 1, eq_ix2 j⟩
  show Gen.out3_6 (Gen.iblk3 V c 0 t) (Gen.iblk3 V c 1 t) (Gen.iblk3 V c 2 t) (Gen.iblk3 V c 3 t) (Gen.iblk3 V c 4 t) (Gen.iblk3 V c 5 t) (ix2 p q)
    = Cert.GcnSpec.normRelu (N := 50000) (C := 128) (V c main_v60) (V c main_v61) (V c main_v62) (V c main_v63) (V c main_v64) (V c main_v65) (((cfg3.win 6).blk t).view.emb (ix2 p q))
  rw [out3_apply, iblk3_0_apply, iblk3_1_apply, iblk3_2_apply, iblk3_3_apply, iblk3_4_apply, iblk3_5_apply]
  exact (normRelu_col (N := 50000) (C := 128) (V c main_v60) (V c main_v61) (V c main_v62) (V c main_v63) (V c main_v64) (V c main_v65) _ q
    (Fin.ext (emb3_col t p q))).symm

/-- An index of the output array is in point t's block iff each coordinate is in the block's range on its axis. -/
theorem mem_blk3 (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v66).slice (win3_6.rect t)).set ↔ _
  rw [View.set_slice_whole, Rect.mem_set_unit]
  exact Iff.rfl

/-- Every index of the output array is in the block of the point its row falls in: row r is in block r / 5000. -/
theorem cover3 (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 10 := Gen.N_3
  let t : Fin cfg3.N := ⟨(i 0).val / 5000, by rw [hN]; omega⟩
  obtain ⟨-, -, -, -, -, -, -, -, -, -, -, -, e12, e13⟩ := idx_facts3 t
  have ht : t.val = (i 0).val / 5000 := rfl
  refine ⟨t, Gen.flush3_6 t, ?_⟩
  rw [mem_blk3]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

/-- After the region, the output array is the normalised, rectified array of the region's six inputs, entry by entry. -/
theorem region3 (c : Dev nD) :
    (Gen.dat3 (F := Ideal) V c).arrAt 6 cfg3.N
      = Cert.GcnSpec.normRelu (N := 50000) (C := 128) (V c main_v60) (V c main_v61) (V c main_v62) (V c main_v63) (V c main_v64) (V c main_v65) :=
  (Gen.dat3 (F := Ideal) V c).arrAt_eq_of_cover 6 _ (fun t _ => flushed3_eq V c t) cover3

end Cert.KernelIdeal.NormRegion

end
-- ==== Proof.Norm5.lean ====
/-
  The third layer's batch normalisation and rectification: every row block of the [50000, 128] aggregate is shifted by
  the bias row, centred by the mean row, scaled by the reciprocal square root of the variance row plus ε and by the
  scale row, shifted by the shift row and clamped below at zero.  After the ten row blocks are written back the output
  array is that function of the region's six input arrays, entry by entry.
-/
import proofs.«152018_j8220567405097_1_alg».proof.Proof.Gen.KernelIdeal.Frame
import proofs.«152018_j8220567405097_1_alg».proof.Proof.Spec
import proofs.«152018_j8220567405097_1_alg».proof.Proof.NormLemmas
import Idealize.ShloMosaic.Lib.ValueIdx
import Idealize.ShloMosaic.Lib.Pipeline.Value
import Idealize.ShloMosaic.PureOps.Ideal.Laws

set_option maxRecDepth 16384

noncomputable section

namespace Cert.KernelIdeal.NormRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's result at an entry (p, q) of a row block: the normalised, rectified value of the block's entry and of
    the five rows' entries (0, q). -/
theorem out5_apply (x0 : Vec Ideal S5000x128 .f32) (x1 x2 x3 x4 x5 : Vec Ideal S1x128 .f32) (p : Fin 5000) (q : Fin 128) :
    Gen.out5_6 x0 x1 x2 x3 x4 x5 (ix2 p q)
      = Cert.GcnSpec.normReluEntry (x0 (ix2 p q)) (x1 (ix2 0 q)) (x2 (ix2 0 q)) (x3 (ix2 0 q)) (x4 (ix2 0 q)) (x5 (ix2 0 q)) := by
  unfold Gen.out5_6
  rw [View.canon_unit_zero zero_offsets]
  simp only [View.ld_unit_zero (S := S5000x128) zero_offsets, View.ld_unit_zero (S := S1x128) zero_offsets]
  unfold Gen.k5_pay1
  simp only [shapeCast_self, maximumf_apply, addf_apply, mulf_apply, subf_apply, broadcast_apply, broadcastRow_apply,
    rsqrt_apply]
  rfl

/-- The printed index maps over the ten grid points: the aggregate's and the output's row block is the point's own,
    column block 0; each row vector's block is (0, 0). -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- The aggregate's block at point t, at (p, q), is the aggregate at row t·5000 + p, column q: the same array index as
    the output block's. -/
theorem iblk5_0_apply (c : Dev nD) (t : Fin cfg5.N) (p : Fin 5000) (q : Fin 128) :
    Gen.iblk5 V c 0 t (ix2 p q) = V c main_v80 (((cfg5.win 6).blk t).view.emb (ix2 p q)) := by
  obtain ⟨e0, e1, -, -, -, -, -, -, -, -, -, -, e12, e13⟩ := idx_facts5 t
  show V c main_v80 (((cfg5.win 0).blk t).view.emb (ix2 p q)) = V c main_v80 (((cfg5.win 6).blk t).view.emb (ix2 p q))
  refine congrArg (V c main_v80) (funext fun a => Fin.ext ?_)
  match a with
  | ⟨0, _⟩ => show win5_0.index t (0 : Fin 2) * 5000 + 1 * p.val = win5_6.index t (0 : Fin 2) * 5000 + 1 * p.val; omega
  | ⟨1, _⟩ => show win5_0.index t (1 : Fin 2) * 128 + 1 * q.val = win5_6.index t (1 : Fin 2) * 128 + 1 * q.val; omega

/-- The bias row's block at any point, at (0, q), is the row's entry (0, q). -/
theorem iblk5_1_apply (c : Dev nD) (t : Fin cfg5.N) (q : Fin 128) :
    Gen.iblk5 V c 1 t (ix2 0 q) = V c main_v81 (ix2 0 q) := by
  obtain ⟨-, -, e2, e3, e4, e5, e6, e7, e8, e9, e10, e11, -, -⟩ := idx_facts5 t
  show V c main_v81 (((cfg5.win 1).blk t).view.emb (ix2 0 q)) = V c main_v81 (ix2 0 q)
  refine congrArg (V c main_v81) (funext fun a => Fin.ext ?_)
  match a with
  | ⟨0, _⟩ => show win5_1.index t (0 : Fin 2) * 1 + 1 * 0 = 0; omega
  | ⟨1, _⟩ => show win5_1.index t (1 : Fin 2) * 128 + 1 * q.val = q.val; omega

/-- The scale row's block at any point, at (0, q), is the row's entry (0, q). -/
theorem iblk5_2_apply (c : Dev nD) (t : Fin cfg5.N) (q : Fin 128) :
    Gen.iblk5 V c 2 t (ix2 0 q) = V c main_v82 (ix2 0 q) := by
  obtain ⟨-, -, e2, e3, e4, e5, e6, e7, e8, e9, e10, e11, -, -⟩ := idx_facts5 t
  show V c main_v82 (((cfg5.win 2).blk t).view.emb (ix2 0 q)) = V c main_v82 (ix2 0 q)
  refine congrArg (V c main_v82) (funext fun a => Fin.ext ?_)
  match a with
  | ⟨0, _⟩ => show win5_2.index t (0 : Fin 2) * 1 + 1 * 0 = 0; omega
  | ⟨1, _⟩ => show win5_2.index t (1 : Fin 2) * 128 + 1 * q.val = q.val; omega

/-- The shift row's block at any point, at (0, q), is the row's entry (0, q). -/
theorem iblk5_3_apply (c : Dev nD) (t : Fin cfg5.N) (q : Fin 128) :
    Gen.iblk5 V c 3 t (ix2 0 q) = V c main_v83 (ix2 0 q) := by
  obtain ⟨-, -, e2, e3, e4, e5, e6, e7, e8, e9, e10, e11, -, -⟩ := idx_facts5 t
  show V c main_v83 (((cfg5.win 3).blk t).view.emb (ix2 0 q)) = V c main_v83 (ix2 0 q)
  refine congrArg (V c main_v83) (funext fun a => Fin.ext ?_)
  match a with
  | ⟨0, _⟩ => show win5_3.index t (0 : Fin 2) * 1 + 1 * 0 = 0; omega
  | ⟨1, _⟩ => show win5_3.index t (1 : Fin 2) * 128 + 1 * q.val = q.val; omega

/-- The mean row's block at any point, at (0, q), is the row's entry (0, q). -/
theorem iblk5_4_apply (c : Dev nD) (t : Fin cfg5.N) (q : Fin 128) :
    Gen.iblk5 V c 4 t (ix2 0 q) = V c main_v84 (ix2 0 q) := by
  obtain ⟨-, -, e2, e3, e4, e5, e6, e7, e8, e9, e10, e11, -, -⟩ := idx_facts5 t
  show V c main_v84 (((cfg5.win 4).blk t).view.emb (ix2 0 q)) = V c main_v84 (ix2 0 q)
  refine congrArg (V c main_v84) (funext fun a => Fin.ext ?_)
  match a with
  | ⟨0, _⟩ => show win5_4.index t (0 : Fin 2) * 1 + 1 * 0 = 0; omega
  | ⟨1, _⟩ => show win5_4.index t (1 : Fin 2) * 128 + 1 * q.val = q.val; omega

/-- The variance row's block at any point, at (0, q), is the row's entry (0, q). -/
theorem iblk5_5_apply (c : Dev nD) (t : Fin cfg5.N) (q : Fin 128) :
    Gen.iblk5 V c 5 t (ix2 0 q) = V c main_v85 (ix2 0 q) := by
  obtain ⟨-, -, e2, e3, e4, e5, e6, e7, e8, e9, e10, e11, -, -⟩ := idx_facts5 t
  show V c main_v85 (((cfg5.win 5).blk t).view.emb (ix2 0 q)) = V c main_v85 (ix2 0 q)
  refine congrArg (V c main_v85) (funext fun a => Fin.ext ?_)
  match a with
  | ⟨0, _⟩ => show win5_5.index t (0 : Fin 2) * 1 + 1 * 0 = 0; omega
  | ⟨1, _⟩ => show win5_5.index t (1 : Fin 2) * 128 + 1 * q.val = q.val; omega

/-- The output block's array index at (p, q) has column q. -/
theorem emb5_col (t : Fin cfg5.N) (p : Fin 5000) (q : Fin 128) :
    ((((cfg5.win 6).blk t).view.emb (ix2 p q) : S50000x128.Idx) 1).val = q.val := by
  obtain ⟨-, -, -, -, -, -, -, -, -, -, -, -, e12, e13⟩ := idx_facts5 t
  show win5_6.index t (1 : Fin 2) * 128 + 1 * q.val = q.val
  omega

/-- What point t writes back is block t of the normalised, rectified array. -/
theorem flushed5_eq (c : Dev nD) (t : Fin cfg5.N) :
    (Gen.dat5 (F := Ideal) V c).flushed 6 t
      = ((cfg5.win 6).blk t).view.read (Elt Ideal)
          (Cert.GcnSpec.normRelu (N := 50000) (C := 128) (V c main_v80) (V c main_v81) (V c main_v82) (V c main_v83) (V c main_v84) (V c main_v85)) := by
  show (cfg5.win 6).cut (grid5.coords t) ((Gen.dat5 V c).after 6 t) = _
  rw [Gen.after5_6]
  funext j
  obtain ⟨p, q, rfl⟩ : ∃ (p : Fin 5000) (q : Fin 128), j = ix2 p q := ⟨j 0, j 1, eq_ix2 j⟩
  show Gen.out5_6 (Gen.iblk5 V c 0 t) (Gen.iblk5 V c 1 t) (Gen.iblk5 V c 2 t) (Gen.iblk5 V c 3 t) (Gen.iblk5 V c 4 t) (Gen.iblk5 V c 5 t) (ix2 p q)
    = Cert.GcnSpec.normRelu (N := 50000) (C := 128) (V c main_v80) (V c main_v81) (V c main_v82) (V c main_v83) (V c main_v84) (V c main_v85) (((cfg5.win 6).blk t).view.emb (ix2 p q))
  rw [out5_apply, iblk5_0_apply, iblk5_1_apply, iblk5_2_apply, iblk5_3_apply, iblk5_4_apply, iblk5_5_apply]
  exact (normRelu_col (N := 50000) (C := 128) (V c main_v80) (V c main_v81) (V c main_v82) (V c main_v83) (V c main_v84) (V c main_v85) _ q
    (Fin.ext (emb5_col t p q))).symm

/-- An index of the output array is in point t's block iff each coordinate is in the block's range on its axis. -/
theorem mem_blk5 (t : Fin cfg5.N) (i : S50000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v86).slice (win5_6.rect t)).set ↔ _
  rw [View.set_slice_whole, Rect.mem_set_unit]
  exact Iff.rfl

/-- Every index of the output array is in the block of the point its row falls in: row r is in block r / 5000. -/
theorem cover5 (i : S50000x128.Idx) :
    ∃ t : Fin cfg5.N, (cfg5.win 6).flush t = true ∧ i ∈ ((cfg5.win 6).blk t).view.set := by
  have hi0 : (i 0).val < 50000 := (i 0).isLt
  have hi1 : (i 1).val < 128 := (i 1).isLt
  have hN : cfg5.N = 10 := Gen.N_5
  let t : Fin cfg5.N := ⟨(i 0).val / 5000, by rw [hN]; omega⟩
  obtain ⟨-, -, -, -, -, -, -, -, -, -, -, -, e12, e13⟩ := idx_facts5 t
  have ht : t.val = (i 0).val / 5000 := rfl
  refine ⟨t, Gen.flush5_6 t, ?_⟩
  rw [mem_blk5]
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 128 ≤ (i 1).val ∧ (i 1).val < win5_6.index t (1 : Fin 2) * 128 + 128; omega

/-- After the region, the output array is the normalised, rectified array of the region's six inputs, entry by entry. -/
theorem region5 (c : Dev nD) :
    (Gen.dat5 (F := Ideal) V c).arrAt 6 cfg5.N
      = Cert.GcnSpec.normRelu (N := 50000) (C := 128) (V c main_v80) (V c main_v81) (V c main_v82) (V c main_v83) (V c main_v84) (V c main_v85) :=
  (Gen.dat5 (F := Ideal) V c).arrAt_eq_of_cover 6 _ (fun t _ => flushed5_eq V c t) cover5

end Cert.KernelIdeal.NormRegion

end
-- ==== Proof.Bias7.lean ====
/-
  The last layer's bias add: every row block of the [50000, 64] aggregate gets the [1, 64] bias row added, so after
  the ten row blocks are written back the output array is the aggregate plus the row, entry by entry.
-/
import proofs.«152018_j8220567405097_1_alg».proof.Proof.Gen.KernelIdeal.Frame
import proofs.«152018_j8220567405097_1_alg».proof.Proof.Spec
import proofs.«152018_j8220567405097_1_alg».proof.Proof.NormLemmas
import Idealize.ShloMosaic.Lib.ValueIdx
import Idealize.ShloMosaic.Lib.Pipeline.Value
import Idealize.ShloMosaic.PureOps.Ideal.Laws

set_option maxRecDepth 16384

noncomputable section

namespace Cert.KernelIdeal.NormRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's result at an entry (p, q) of a row block: the block's entry plus the bias row's entry (0, q). -/
theorem out7_apply (x0 : Vec Ideal S5000x64 .f32) (x1 : Vec Ideal S1x64 .f32) (p : Fin 5000) (q : Fin 64) :
    Gen.out7_2 x0 x1 (ix2 p q) = x0 (ix2 p q) + x1 (ix2 0 q) := by
  unfold Gen.out7_2
  rw [View.canon_unit_zero zero_offsets]
  simp only [View.ld_unit_zero (S := S5000x64) zero_offsets, View.ld_unit_zero (S := S1x64) zero_offsets]
  unfold Gen.k7_pay1
  rw [addf_apply, shapeCast_self, shapeCast_self, broadcastRow_apply]

/-- The printed index maps over the ten grid points: the aggregate's and the output's row block is the point's own,
    column block 0; the bias row's block is (0, 0). -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- The aggregate's block at point t, at (p, q), is the aggregate at row t·5000 + p, column q: the same array index as
    the output block's. -/
theorem iblk7_0_apply (c : Dev nD) (t : Fin cfg7.N) (p : Fin 5000) (q : Fin 64) :
    Gen.iblk7 V c 0 t (ix2 p q) = V c main_v100 (((cfg7.win 2).blk t).view.emb (ix2 p q)) := by
  obtain ⟨e0, e1, e2, e3, e4, e5⟩ := idx_facts7 t
  show V c main_v100 (((cfg7.win 0).blk t).view.emb (ix2 p q)) = V c main_v100 (((cfg7.win 2).blk t).view.emb (ix2 p q))
  refine congrArg (V c main_v100) (funext fun a => Fin.ext ?_)
  match a with
  | ⟨0, _⟩ => show win7_0.index t (0 : Fin 2) * 5000 + 1 * p.val = win7_2.index t (0 : Fin 2) * 5000 + 1 * p.val; omega
  | ⟨1, _⟩ => show win7_0.index t (1 : Fin 2) * 64 + 1 * q.val = win7_2.index t (1 : Fin 2) * 64 + 1 * q.val; omega

/-- The bias row's block at any point, at (0, q), is the row's entry (0, q). -/
theorem iblk7_1_apply (c : Dev nD) (t : Fin cfg7.N) (q : Fin 64) :
    Gen.iblk7 V c 1 t (ix2 0 q) = V c main_v101 (ix2 0 q) := by
  obtain ⟨e0, e1, e2, e3, e4, e5⟩ := idx_facts7 t
  show V c main_v101 (((cfg7.win 1).blk t).view.emb (ix2 0 q)) = V c main_v101 (ix2 0 q)
  refine congrArg (V c main_v101) (funext fun a => Fin.ext ?_)
  match a with
  | ⟨0, _⟩ => show win7_1.index t (0 : Fin 2) * 1 + 1 * 0 = 0; omega
  | ⟨1, _⟩ => show win7_1.index t (1 : Fin 2) * 64 + 1 * q.val = q.val; omega

/-- The output block's array index at (p, q) has column q. -/
theorem emb7_col (t : Fin cfg7.N) (p : Fin 5000) (q : Fin 64) :
    ((((cfg7.win 2).blk t).view.emb (ix2 p q) : S50000x64.Idx) 1).val = q.val := by
  obtain ⟨e0, e1, e2, e3, e4, e5⟩ := idx_facts7 t
  show win7_2.index t (1 : Fin 2) * 64 + 1 * q.val = q.val
  omega

/-- What point t writes back is block t of the aggregate plus the bias row. -/
theorem flushed7_eq (c : Dev nD) (t : Fin cfg7.N) :
    (Gen.dat7 (F := Ideal) V c).flushed 2 t
      = ((cfg7.win 2).blk t).view.read (Elt Ideal)
          (Cert.GcnSpec.addRow (N := 50000) (C := 64) (V c main_v100) (V c main_v101)) := by
  show (cfg7.win 2).cut (grid7.coords t) ((Gen.dat7 V c).after 2 t) = _
  rw [Gen.after7_2]
  funext j
  obtain ⟨p, q, rfl⟩ : ∃ (p : Fin 5000) (q : Fin 64), j = ix2 p q := ⟨j 0, j 1, eq_ix2 j⟩
  show Gen.out7_2 (Gen.iblk7 V c 0 t) (Gen.iblk7 V c 1 t) (ix2 p q)
    = Cert.GcnSpec.addRow (N := 50000) (C := 64) (V c main_v100) (V c main_v101) (((cfg7.win 2).blk t).view.emb (ix2 p q))
  rw [out7_apply, iblk7_0_apply, iblk7_1_apply]
  exact (addRow_col (N := 50000) (C := 64) (V c main_v100) (V c main_v101) _ q (Fin.ext (emb7_col t p q))).symm

/-- An index of the output array is in point t's block iff each coordinate is in the block's range on its axis. -/
theorem mem_blk7 (t : Fin cfg7.N) (i : S50000x64.Idx) :
    i ∈ ((cfg7.win 2).blk t).view.set ↔ ∀ a : Fin 2, win7_2.index t a * S5000x64.size a ≤ (i a).val ∧ (i a).val < win7_2.index t a * S5000x64.size a + S5000x64.size a := by
  show i ∈ ((View.whole main_v102).slice (win7_2.rect t)).set ↔ _
  rw [View.set_slice_whole, Rect.mem_set_unit]
  exact Iff.rfl

/-- Every index of the output array is in the block of the point its row falls in: row r is in block r / 5000. -/
theorem cover7 (i : S50000x64.Idx) :
    ∃ t : Fin cfg7.N, (cfg7.win 2).flush t = true ∧ i ∈ ((cfg7.win 2).blk t).view.set := by
  have hi0 : (i 0).val < 50000 := (i 0).isLt
  have hi1 : (i 1).val < 64 := (i 1).isLt
  have hN : cfg7.N = 10 := Gen.N_7
  let t : Fin cfg7.N := ⟨(i 0).val / 5000, by rw [hN]; omega⟩
  obtain ⟨e0, e1, e2, e3, e4, e5⟩ := idx_facts7 t
  have ht : t.val = (i 0).val / 5000 := rfl
  refine ⟨t, Gen.flush7_2 t, ?_⟩
  rw [mem_blk7]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 64 ≤ (i 1).val ∧ (i 1).val < win7_2.index t (1 : Fin 2) * 64 + 64; omega

/-- After the region, the output array is the aggregate plus the bias row, entry by entry. -/
theorem region7 (c : Dev nD) :
    (Gen.dat7 (F := Ideal) V c).arrAt 2 cfg7.N
      = Cert.GcnSpec.addRow (N := 50000) (C := 64) (V c main_v100) (V c main_v101) :=
  (Gen.dat7 (F := Ideal) V c).arrAt_eq_of_cover 2 _ (fun t _ => flushed7_eq V c t) cover7

end Cert.KernelIdeal.NormRegion

end
-- ==== Proof.Fold.lean ====
/-
  The graph convolution's run, read back segment by segment.

  Between the launch and the return the buffers pass thirteen segment boundaries: five stretches of whole-array
  operations (the edge lists with self loops, the degree normalisation, and per layer the gather of source rows, the
  scaling by the edge weight and the scatter-add to destination rows) and eight kernel regions (four dense products
  and four per-node stages).  A region changes only its result array, and that array is a whole-array function of the
  arrays the region was entered with: the dense product of the node features and the layer's weights, or the
  normalise-and-rectify stage (the bias add in the last layer) of the aggregated messages and the layer's row
  vectors.  The row vectors reach a region reshaped to [1, C]; read back through the reshape, each stage is the
  composition of whole-array operations on the vectors themselves.  With one such equation per region the buffer
  contents at the last boundary unfold, boundary by boundary, into one term of the argument arrays.
-/
import proofs.«152018_j8220567405097_1_alg».proof.Proof.Gen.KernelIdeal.Frame
import proofs.«152018_j8220567405097_1_alg».proof.Proof.Gen.ReferenceIdeal
import proofs.«152018_j8220567405097_1_alg».proof.Proof.Spec
import proofs.«152018_j8220567405097_1_alg».proof.Proof.RowForms
import proofs.«152018_j8220567405097_1_alg».proof.Proof.Dense0
import proofs.«152018_j8220567405097_1_alg».proof.Proof.Dense2
import proofs.«152018_j8220567405097_1_alg».proof.Proof.Dense4
import proofs.«152018_j8220567405097_1_alg».proof.Proof.Dense6
import proofs.«152018_j8220567405097_1_alg».proof.Proof.Norm1
import proofs.«152018_j8220567405097_1_alg».proof.Proof.Norm3
import proofs.«152018_j8220567405097_1_alg».proof.Proof.Norm5
import proofs.«152018_j8220567405097_1_alg».proof.Proof.Bias7
import Idealize.ShloMosaic.Lib.StableHlo.Run
import Idealize.ShloMosaic.PureOps.Ideal
import Idealize.ShloMosaic.Lib.ValueIdx

set_option maxRecDepth 16384

noncomputable section

namespace Cert.KernelIdeal.Fold

open Cert.KernelIdeal Cert.KernelIdeal.Gen
open Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (ρ : Dev nD → PrngReg) (c : Dev nD)

/-! ## The row vectors as the per-node regions find them: each a reshape of an argument vector -/

theorem W3_v41 : W3 m ρ c (Proc.devRef .tc main_v41) = shapeCast S1x128 (W2 m ρ c (Proc.devRef .tc main_arg3) : FVec Ideal S128 .f32) shapeCasts_S128_S1x128 := by
  show StableHlo.after hostOps1 (W2 m ρ c) _ = _
  after_results
  rfl
theorem W3_v42 : W3 m ρ c (Proc.devRef .tc main_v42) = shapeCast S1x128 (W2 m ρ c (Proc.devRef .tc main_arg10) : FVec Ideal S128 .f32) shapeCasts_S128_S1x128 := by
  show StableHlo.after hostOps1 (W2 m ρ c) _ = _
  after_results
  rfl
theorem W3_v43 : W3 m ρ c (Proc.devRef .tc main_v43) = shapeCast S1x128 (W2 m ρ c (Proc.devRef .tc main_arg11) : FVec Ideal S128 .f32) shapeCasts_S128_S1x128 := by
  show StableHlo.after hostOps1 (W2 m ρ c) _ = _
  after_results
  rfl
theorem W3_v44 : W3 m ρ c (Proc.devRef .tc main_v44) = shapeCast S1x128 (W2 m ρ c (Proc.devRef .tc main_arg12) : FVec Ideal S128 .f32) shapeCasts_S128_S1x128 := by
  show StableHlo.after hostOps1 (W2 m ρ c) _ = _
  after_results
  rfl
theorem W3_v45 : W3 m ρ c (Proc.devRef .tc main_v45) = shapeCast S1x128 (W2 m ρ c (Proc.devRef .tc main_arg13) : FVec Ideal S128 .f32) shapeCasts_S128_S1x128 := by
  show StableHlo.after hostOps1 (W2 m ρ c) _ = _
  after_results
  rfl

theorem W6_v61 : W6 m ρ c (Proc.devRef .tc main_v61) = shapeCast S1x128 (W5 m ρ c (Proc.devRef .tc main_arg5) : FVec Ideal S128 .f32) shapeCasts_S128_S1x128 := by
  show StableHlo.after hostOps3 (W5 m ρ c) _ = _
  after_results
  rfl
theorem W6_v62 : W6 m ρ c (Proc.devRef .tc main_v62) = shapeCast S1x128 (W5 m ρ c (Proc.devRef .tc main_arg14) : FVec Ideal S128 .f32) shapeCasts_S128_S1x128 := by
  show StableHlo.after hostOps3 (W5 m ρ c) _ = _
  after_results
  rfl
theorem W6_v63 : W6 m ρ c (Proc.devRef .tc main_v63) = shapeCast S1x128 (W5 m ρ c (Proc.devRef .tc main_arg15) : FVec Ideal S128 .f32) shapeCasts_S128_S1x128 := by
  show StableHlo.after hostOps3 (W5 m ρ c) _ = _
  after_results
  rfl
theorem W6_v64 : W6 m ρ c (Proc.devRef .tc main_v64) = shapeCast S1x128 (W5 m ρ c (Proc.devRef .tc main_arg16) : FVec Ideal S128 .f32) shapeCasts_S128_S1x128 := by
  show StableHlo.after hostOps3 (W5 m ρ c) _ = _
  after_results
  rfl
theorem W6_v65 : W6 m ρ c (Proc.devRef .tc main_v65) = shapeCast S1x128 (W5 m ρ c (Proc.devRef .tc main_arg17) : FVec Ideal S128 .f32) shapeCasts_S128_S1x128 := by
  show StableHlo.after hostOps3 (W5 m ρ c) _ = _
  after_results
  rfl

theorem W9_v81 : W9 m ρ c (Proc.devRef .tc main_v81) = shapeCast S1x128 (W8 m ρ c (Proc.devRef .tc main_arg7) : FVec Ideal S128 .f32) shapeCasts_S128_S1x128 := by
  show StableHlo.after hostOps5 (W8 m ρ c) _ = _
  after_results
  rfl
theorem W9_v82 : W9 m ρ c (Proc.devRef .tc main_v82) = shapeCast S1x128 (W8 m ρ c (Proc.devRef .tc main_arg18) : FVec Ideal S128 .f32) shapeCasts_S128_S1x128 := by
  show StableHlo.after hostOps5 (W8 m ρ c) _ = _
  after_results
  rfl
theorem W9_v83 : W9 m ρ c (Proc.devRef .tc main_v83) = shapeCast S1x128 (W8 m ρ c (Proc.devRef .tc main_arg19) : FVec Ideal S128 .f32) shapeCasts_S128_S1x128 := by
  show StableHlo.after hostOps5 (W8 m ρ c) _ = _
  after_results
  rfl
theorem W9_v84 : W9 m ρ c (Proc.devRef .tc main_v84) = shapeCast S1x128 (W8 m ρ c (Proc.devRef .tc main_arg20) : FVec Ideal S128 .f32) shapeCasts_S128_S1x128 := by
  show StableHlo.after hostOps5 (W8 m ρ c) _ = _
  after_results
  rfl
theorem W9_v85 : W9 m ρ c (Proc.devRef .tc main_v85) = shapeCast S1x128 (W8 m ρ c (Proc.devRef .tc main_arg21) : FVec Ideal S128 .f32) shapeCasts_S128_S1x128 := by
  show StableHlo.after hostOps5 (W8 m ρ c) _ = _
  after_results
  rfl

theorem W12_v101 : W12 m ρ c (Proc.devRef .tc main_v101) = shapeCast S1x64 (W11 m ρ c (Proc.devRef .tc main_arg9) : FVec Ideal S64 .f32) shapeCasts_S64_S1x64 := by
  show StableHlo.after hostOps7 (W11 m ρ c) _ = _
  after_results
  rfl

/-! ## One equation per region: its result array when it is left, and its input arrays unchanged -/

/-- Region 0's result array when the region is left, from the arrays it was entered with. -/
theorem W2_out : W2 m ρ c (Proc.devRef .tc main_v27) = (Host.dotGeneral (F := Ideal) (φ₁ := .f32) (φ₂ := .f32) Cert.ReferenceIdeal.dot_S50000x128_S128x128_S50000x128_1_0_0_1_n_n none (W1 m ρ c (Proc.devRef .tc main_arg0) : FVec Ideal S50000x128 .f32) (W1 m ρ c (Proc.devRef .tc main_arg2) : FVec Ideal S128x128 .f32) : FVec Ideal S50000x128 .f32) :=
  (W2_arr m ρ c 2).trans (Cert.KernelIdeal.Dense0.region (V1 m ρ) Cert.ReferenceIdeal.dot_S50000x128_S128x128_S50000x128_1_0_0_1_n_n ⟨rfl, rfl, rfl, rfl, rfl, rfl⟩ none .single c)
theorem W2_in0 : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))
theorem W2_in1 : W2 m ρ c (Proc.devRef .tc main_arg2) = W1 m ρ c (Proc.devRef .tc main_arg2) :=
  (W2_arr m ρ c 1).trans (((dat0 (V1 m ρ) c).arrAt_in 1 rfl _).trans (A_eq0 (V1 m ρ) c 1))

/-- Region 1's result array when the region is left, from the arrays it was entered with. -/
theorem W4_out : W4 m ρ c (Proc.devRef .tc main_v46) = (maximumf (F := Ideal) (addf (mulf (mulf (subf (addf (W3 m ρ c (Proc.devRef .tc main_v40) : FVec Ideal S50000x128 .f32) (broadcastInDim S50000x128 ![0, 1] Cert.ReferenceIdeal.Facts₀.bcast_S1x128_S50000x128_0_1 (broadcastInDim S1x128 ![1] Cert.ReferenceIdeal.Facts₀.bcast_S128_S1x128_1 (W2 m ρ c (Proc.devRef .tc main_arg3) : FVec Ideal S128 .f32)))) (broadcastInDim S50000x128 ![0, 1] Cert.ReferenceIdeal.Facts₀.bcast_S1x128_S50000x128_0_1 (broadcastInDim S1x128 ![1] Cert.ReferenceIdeal.Facts₀.bcast_S128_S1x128_1 (W2 m ρ c (Proc.devRef .tc main_arg12) : FVec Ideal S128 .f32)))) (broadcastInDim S50000x128 ![0, 1] Cert.ReferenceIdeal.Facts₀.bcast_S1x128_S50000x128_0_1 (broadcastInDim S1x128 ![1] Cert.ReferenceIdeal.Facts₀.bcast_S128_S1x128_1 (Host.rsqrt (addf (W2 m ρ c (Proc.devRef .tc main_arg13) : FVec Ideal S128 .f32) (broadcastInDim S128 ![] Cert.ReferenceIdeal.Facts₀.bcast_S_S128 (constant S_ .f32 0x3727C5AC#32))))))) (broadcastInDim S50000x128 ![0, 1] Cert.ReferenceIdeal.Facts₀.bcast_S1x128_S50000x128_0_1 (broadcastInDim S1x128 ![1] Cert.ReferenceIdeal.Facts₀.bcast_S128_S1x128_1 (W2 m ρ c (Proc.devRef .tc main_arg10) : FVec Ideal S128 .f32)))) (broadcastInDim S50000x128 ![0, 1] Cert.ReferenceIdeal.Facts₀.bcast_S1x128_S50000x128_0_1 (broadcastInDim S1x128 ![1] Cert.ReferenceIdeal.Facts₀.bcast_S128_S1x128_1 (W2 m ρ c (Proc.devRef .tc main_arg11) : FVec Ideal S128 .f32)))) (broadcastInDim S50000x128 ![] Cert.ReferenceIdeal.Facts₀.bcast_S_S50000x128 (constant S_ .f32 0x00000000#32)) : FVec Ideal S50000x128 .f32) :=
  by
  refine (W4_arr m ρ c 6).trans ((Cert.KernelIdeal.NormRegion.region1 (V3 m ρ) c).trans ?_)
  show Cert.GcnSpec.normRelu (N := 50000) (C := 128) (W3 m ρ c (Proc.devRef .tc main_v40)) (W3 m ρ c (Proc.devRef .tc main_v41)) (W3 m ρ c (Proc.devRef .tc main_v42)) (W3 m ρ c (Proc.devRef .tc main_v43)) (W3 m ρ c (Proc.devRef .tc main_v44)) (W3 m ρ c (Proc.devRef .tc main_v45)) = _
  rw [W3_v41 m ρ c, W3_v42 m ρ c, W3_v43 m ρ c, W3_v44 m ρ c, W3_v45 m ρ c]
  exact Cert.GcnSpec.normRelu_reshaped _ _ _ _ _ _ _ _ _ _ _
theorem W4_in0 : W4 m ρ c (Proc.devRef .tc main_v40) = W3 m ρ c (Proc.devRef .tc main_v40) :=
  (W4_arr m ρ c 0).trans (((dat1 (V3 m ρ) c).arrAt_in 0 rfl _).trans (A_eq1 (V3 m ρ) c 0))
theorem W4_in1 : W4 m ρ c (Proc.devRef .tc main_v41) = W3 m ρ c (Proc.devRef .tc main_v41) :=
  (W4_arr m ρ c 1).trans (((dat1 (V3 m ρ) c).arrAt_in 1 rfl _).trans (A_eq1 (V3 m ρ) c 1))
theorem W4_in2 : W4 m ρ c (Proc.devRef .tc main_v42) = W3 m ρ c (Proc.devRef .tc main_v42) :=
  (W4_arr m ρ c 2).trans (((dat1 (V3 m ρ) c).arrAt_in 2 rfl _).trans (A_eq1 (V3 m ρ) c 2))
theorem W4_in3 : W4 m ρ c (Proc.devRef .tc main_v43) = W3 m ρ c (Proc.devRef .tc main_v43) :=
  (W4_arr m ρ c 3).trans (((dat1 (V3 m ρ) c).arrAt_in 3 rfl _).trans (A_eq1 (V3 m ρ) c 3))
theorem W4_in4 : W4 m ρ c (Proc.devRef .tc main_v44) = W3 m ρ c (Proc.devRef .tc main_v44) :=
  (W4_arr m ρ c 4).trans (((dat1 (V3 m ρ) c).arrAt_in 4 rfl _).trans (A_eq1 (V3 m ρ) c 4))
theorem W4_in5 : W4 m ρ c (Proc.devRef .tc main_v45) = W3 m ρ c (Proc.devRef .tc main_v45) :=
  (W4_arr m ρ c 5).trans (((dat1 (V3 m ρ) c).arrAt_in 5 rfl _).trans (A_eq1 (V3 m ρ) c 5))

/-- Region 2's result array when the region is left, from the arrays it was entered with. -/
theorem W5_out : W5 m ρ c (Proc.devRef .tc main_v47) = (Host.dotGeneral (F := Ideal) (φ₁ := .f32) (φ₂ := .f32) Cert.ReferenceIdeal.dot_S50000x128_S128x128_S50000x128_1_0_0_1_n_n none (W4 m ρ c (Proc.devRef .tc main_v46) : FVec Ideal S50000x128 .f32) (W4 m ρ c (Proc.devRef .tc main_arg4) : FVec Ideal S128x128 .f32) : FVec Ideal S50000x128 .f32) :=
  (W5_arr m ρ c 2).trans (Cert.KernelIdeal.Dense2.region (V4 m ρ) Cert.ReferenceIdeal.dot_S50000x128_S128x128_S50000x128_1_0_0_1_n_n ⟨rfl, rfl, rfl, rfl, rfl, rfl⟩ none .single c)
theorem W5_in0 : W5 m ρ c (Proc.devRef .tc main_v46) = W4 m ρ c (Proc.devRef .tc main_v46) :=
  (W5_arr m ρ c 0).trans (((dat2 (V4 m ρ) c).arrAt_in 0 rfl _).trans (A_eq2 (V4 m ρ) c 0))
theorem W5_in1 : W5 m ρ c (Proc.devRef .tc main_arg4) = W4 m ρ c (Proc.devRef .tc main_arg4) :=
  (W5_arr m ρ c 1).trans (((dat2 (V4 m ρ) c).arrAt_in 1 rfl _).trans (A_eq2 (V4 m ρ) c 1))

/-- Region 3's result array when the region is left, from the arrays it was entered with. -/
theorem W7_out : W7 m ρ c (Proc.devRef .tc main_v66) = (maximumf (F := Ideal) (addf (mulf (mulf (subf (addf (W6 m ρ c (Proc.devRef .tc main_v60) : FVec Ideal S50000x128 .f32) (broadcastInDim S50000x128 ![0, 1] Cert.ReferenceIdeal.Facts₀.bcast_S1x128_S50000x128_0_1 (broadcastInDim S1x128 ![1] Cert.ReferenceIdeal.Facts₀.bcast_S128_S1x128_1 (W5 m ρ c (Proc.devRef .tc main_arg5) : FVec Ideal S128 .f32)))) (broadcastInDim S50000x128 ![0, 1] Cert.ReferenceIdeal.Facts₀.bcast_S1x128_S50000x128_0_1 (broadcastInDim S1x128 ![1] Cert.ReferenceIdeal.Facts₀.bcast_S128_S1x128_1 (W5 m ρ c (Proc.devRef .tc main_arg16) : FVec Ideal S128 .f32)))) (broadcastInDim S50000x128 ![0, 1] Cert.ReferenceIdeal.Facts₀.bcast_S1x128_S50000x128_0_1 (broadcastInDim S1x128 ![1] Cert.ReferenceIdeal.Facts₀.bcast_S128_S1x128_1 (Host.rsqrt (addf (W5 m ρ c (Proc.devRef .tc main_arg17) : FVec Ideal S128 .f32) (broadcastInDim S128 ![] Cert.ReferenceIdeal.Facts₀.bcast_S_S128 (constant S_ .f32 0x3727C5AC#32))))))) (broadcastInDim S50000x128 ![0, 1] Cert.ReferenceIdeal.Facts₀.bcast_S1x128_S50000x128_0_1 (broadcastInDim S1x128 ![1] Cert.ReferenceIdeal.Facts₀.bcast_S128_S1x128_1 (W5 m ρ c (Proc.devRef .tc main_arg14) : FVec Ideal S128 .f32)))) (broadcastInDim S50000x128 ![0, 1] Cert.ReferenceIdeal.Facts₀.bcast_S1x128_S50000x128_0_1 (broadcastInDim S1x128 ![1] Cert.ReferenceIdeal.Facts₀.bcast_S128_S1x128_1 (W5 m ρ c (Proc.devRef .tc main_arg15) : FVec Ideal S128 .f32)))) (broadcastInDim S50000x128 ![] Cert.ReferenceIdeal.Facts₀.bcast_S_S50000x128 (constant S_ .f32 0x00000000#32)) : FVec Ideal S50000x128 .f32) :=
  by
  refine (W7_arr m ρ c 6).trans ((Cert.KernelIdeal.NormRegion.region3 (V6 m ρ) c).trans ?_)
  show Cert.GcnSpec.normRelu (N := 50000) (C := 128) (W6 m ρ c (Proc.devRef .tc main_v60)) (W6 m ρ c (Proc.devRef .tc main_v61)) (W6 m ρ c (Proc.devRef .tc main_v62)) (W6 m ρ c (Proc.devRef .tc main_v63)) (W6 m ρ c (Proc.devRef .tc main_v64)) (W6 m ρ c (Proc.devRef .tc main_v65)) = _
  rw [W6_v61 m ρ c, W6_v62 m ρ c, W6_v63 m ρ c, W6_v64 m ρ c, W6_v65 m ρ c]
  exact Cert.GcnSpec.normRelu_reshaped _ _ _ _ _ _ _ _ _ _ _
theorem W7_in0 : W7 m ρ c (Proc.devRef .tc main_v60) = W6 m ρ c (Proc.devRef .tc main_v60) :=
  (W7_arr m ρ c 0).trans (((dat3 (V6 m ρ) c).arrAt_in 0 rfl _).trans (A_eq3 (V6 m ρ) c 0))
theorem W7_in1 : W7 m ρ c (Proc.devRef .tc main_v61) = W6 m ρ c (Proc.devRef .tc main_v61) :=
  (W7_arr m ρ c 1).trans (((dat3 (V6 m ρ) c).arrAt_in 1 rfl _).trans (A_eq3 (V6 m ρ) c 1))
theorem W7_in2 : W7 m ρ c (Proc.devRef .tc main_v62) = W6 m ρ c (Proc.devRef .tc main_v62) :=
  (W7_arr m ρ c 2).trans (((dat3 (V6 m ρ) c).arrAt_in 2 rfl _).trans (A_eq3 (V6 m ρ) c 2))
theorem W7_in3 : W7 m ρ c (Proc.devRef .tc main_v63) = W6 m ρ c (Proc.devRef .tc main_v63) :=
  (W7_arr m ρ c 3).trans (((dat3 (V6 m ρ) c).arrAt_in 3 rfl _).trans (A_eq3 (V6 m ρ) c 3))
theorem W7_in4 : W7 m ρ c (Proc.devRef .tc main_v64) = W6 m ρ c (Proc.devRef .tc main_v64) :=
  (W7_arr m ρ c 4).trans (((dat3 (V6 m ρ) c).arrAt_in 4 rfl _).trans (A_eq3 (V6 m ρ) c 4))
theorem W7_in5 : W7 m ρ c (Proc.devRef .tc main_v65) = W6 m ρ c (Proc.devRef .tc main_v65) :=
  (W7_arr m ρ c 5).trans (((dat3 (V6 m ρ) c).arrAt_in 5 rfl _).trans (A_eq3 (V6 m ρ) c 5))

/-- Region 4's result array when the region is left, from the arrays it was entered with. -/
theorem W8_out : W8 m ρ c (Proc.devRef .tc main_v67) = (Host.dotGeneral (F := Ideal) (φ₁ := .f32) (φ₂ := .f32) Cert.ReferenceIdeal.dot_S50000x128_S128x128_S50000x128_1_0_0_1_n_n none (W7 m ρ c (Proc.devRef .tc main_v66) : FVec Ideal S50000x128 .f32) (W7 m ρ c (Proc.devRef .tc main_arg6) : FVec Ideal S128x128 .f32) : FVec Ideal S50000x128 .f32) :=
  (W8_arr m ρ c 2).trans (Cert.KernelIdeal.Dense4.region (V7 m ρ) Cert.ReferenceIdeal.dot_S50000x128_S128x128_S50000x128_1_0_0_1_n_n ⟨rfl, rfl, rfl, rfl, rfl, rfl⟩ none .single c)
theorem W8_in0 : W8 m ρ c (Proc.devRef .tc main_v66) = W7 m ρ c (Proc.devRef .tc main_v66) :=
  (W8_arr m ρ c 0).trans (((dat4 (V7 m ρ) c).arrAt_in 0 rfl _).trans (A_eq4 (V7 m ρ) c 0))
theorem W8_in1 : W8 m ρ c (Proc.devRef .tc main_arg6) = W7 m ρ c (Proc.devRef .tc main_arg6) :=
  (W8_arr m ρ c 1).trans (((dat4 (V7 m ρ) c).arrAt_in 1 rfl _).trans (A_eq4 (V7 m ρ) c 1))

/-- Region 5's result array when the region is left, from the arrays it was entered with. -/
theorem W10_out : W10 m ρ c (Proc.devRef .tc main_v86) = (maximumf (F := Ideal) (addf (mulf (mulf (subf (addf (W9 m ρ c (Proc.devRef .tc main_v80) : FVec Ideal S50000x128 .f32) (broadcastInDim S50000x128 ![0, 1] Cert.ReferenceIdeal.Facts₀.bcast_S1x128_S50000x128_0_1 (broadcastInDim S1x128 ![1] Cert.ReferenceIdeal.Facts₀.bcast_S128_S1x128_1 (W8 m ρ c (Proc.devRef .tc main_arg7) : FVec Ideal S128 .f32)))) (broadcastInDim S50000x128 ![0, 1] Cert.ReferenceIdeal.Facts₀.bcast_S1x128_S50000x128_0_1 (broadcastInDim S1x128 ![1] Cert.ReferenceIdeal.Facts₀.bcast_S128_S1x128_1 (W8 m ρ c (Proc.devRef .tc main_arg20) : FVec Ideal S128 .f32)))) (broadcastInDim S50000x128 ![0, 1] Cert.ReferenceIdeal.Facts₀.bcast_S1x128_S50000x128_0_1 (broadcastInDim S1x128 ![1] Cert.ReferenceIdeal.Facts₀.bcast_S128_S1x128_1 (Host.rsqrt (addf (W8 m ρ c (Proc.devRef .tc main_arg21) : FVec Ideal S128 .f32) (broadcastInDim S128 ![] Cert.ReferenceIdeal.Facts₀.bcast_S_S128 (constant S_ .f32 0x3727C5AC#32))))))) (broadcastInDim S50000x128 ![0, 1] Cert.ReferenceIdeal.Facts₀.bcast_S1x128_S50000x128_0_1 (broadcastInDim S1x128 ![1] Cert.ReferenceIdeal.Facts₀.bcast_S128_S1x128_1 (W8 m ρ c (Proc.devRef .tc main_arg18) : FVec Ideal S128 .f32)))) (broadcastInDim S50000x128 ![0, 1] Cert.ReferenceIdeal.Facts₀.bcast_S1x128_S50000x128_0_1 (broadcastInDim S1x128 ![1] Cert.ReferenceIdeal.Facts₀.bcast_S128_S1x128_1 (W8 m ρ c (Proc.devRef .tc main_arg19) : FVec Ideal S128 .f32)))) (broadcastInDim S50000x128 ![] Cert.ReferenceIdeal.Facts₀.bcast_S_S50000x128 (constant S_ .f32 0x00000000#32)) : FVec Ideal S50000x128 .f32) :=
  by
  refine (W10_arr m ρ c 6).trans ((Cert.KernelIdeal.NormRegion.region5 (V9 m ρ) c).trans ?_)
  show Cert.GcnSpec.normRelu (N := 50000) (C := 128) (W9 m ρ c (Proc.devRef .tc main_v80)) (W9 m ρ c (Proc.devRef .tc main_v81)) (W9 m ρ c (Proc.devRef .tc main_v82)) (W9 m ρ c (Proc.devRef .tc main_v83)) (W9 m ρ c (Proc.devRef .tc main_v84)) (W9 m ρ c (Proc.devRef .tc main_v85)) = _
  rw [W9_v81 m ρ c, W9_v82 m ρ c, W9_v83 m ρ c, W9_v84 m ρ c, W9_v85 m ρ c]
  exact Cert.GcnSpec.normRelu_reshaped _ _ _ _ _ _ _ _ _ _ _
theorem W10_in0 : W10 m ρ c (Proc.devRef .tc main_v80) = W9 m ρ c (Proc.devRef .tc main_v80) :=
  (W10_arr m ρ c 0).trans (((dat5 (V9 m ρ) c).arrAt_in 0 rfl _).trans (A_eq5 (V9 m ρ) c 0))
theorem W10_in1 : W10 m ρ c (Proc.devRef .tc main_v81) = W9 m ρ c (Proc.devRef .tc main_v81) :=
  (W10_arr m ρ c 1).trans (((dat5 (V9 m ρ) c).arrAt_in 1 rfl _).trans (A_eq5 (V9 m ρ) c 1))
theorem W10_in2 : W10 m ρ c (Proc.devRef .tc main_v82) = W9 m ρ c (Proc.devRef .tc main_v82) :=
  (W10_arr m ρ c 2).trans (((dat5 (V9 m ρ) c).arrAt_in 2 rfl _).trans (A_eq5 (V9 m ρ) c 2))
theorem W10_in3 : W10 m ρ c (Proc.devRef .tc main_v83) = W9 m ρ c (Proc.devRef .tc main_v83) :=
  (W10_arr m ρ c 3).trans (((dat5 (V9 m ρ) c).arrAt_in 3 rfl _).trans (A_eq5 (V9 m ρ) c 3))
theorem W10_in4 : W10 m ρ c (Proc.devRef .tc main_v84) = W9 m ρ c (Proc.devRef .tc main_v84) :=
  (W10_arr m ρ c 4).trans (((dat5 (V9 m ρ) c).arrAt_in 4 rfl _).trans (A_eq5 (V9 m ρ) c 4))
theorem W10_in5 : W10 m ρ c (Proc.devRef .tc main_v85) = W9 m ρ c (Proc.devRef .tc main_v85) :=
  (W10_arr m ρ c 5).trans (((dat5 (V9 m ρ) c).arrAt_in 5 rfl _).trans (A_eq5 (V9 m ρ) c 5))

/-- Region 6's result array when the region is left, from the arrays it was entered with. -/
theorem W11_out : W11 m ρ c (Proc.devRef .tc main_v87) = (Host.dotGeneral (F := Ideal) (φ₁ := .f32) (φ₂ := .f32) Cert.ReferenceIdeal.dot_S50000x128_S128x64_S50000x64_1_0_0_1_n_n none (W10 m ρ c (Proc.devRef .tc main_v86) : FVec Ideal S50000x128 .f32) (W10 m ρ c (Proc.devRef .tc main_arg8) : FVec Ideal S128x64 .f32) : FVec Ideal S50000x64 .f32) :=
  (W11_arr m ρ c 2).trans (Cert.KernelIdeal.Dense6.region (V10 m ρ) Cert.ReferenceIdeal.dot_S50000x128_S128x64_S50000x64_1_0_0_1_n_n ⟨rfl, rfl, rfl, rfl, rfl, rfl⟩ none .single c)
theorem W11_in0 : W11 m ρ c (Proc.devRef .tc main_v86) = W10 m ρ c (Proc.devRef .tc main_v86) :=
  (W11_arr m ρ c 0).trans (((dat6 (V10 m ρ) c).arrAt_in 0 rfl _).trans (A_eq6 (V10 m ρ) c 0))
theorem W11_in1 : W11 m ρ c (Proc.devRef .tc main_arg8) = W10 m ρ c (Proc.devRef .tc main_arg8) :=
  (W11_arr m ρ c 1).trans (((dat6 (V10 m ρ) c).arrAt_in 1 rfl _).trans (A_eq6 (V10 m ρ) c 1))

/-- Region 7's result array when the region is left, from the arrays it was entered with. -/
theorem W13_out : W13 m ρ c (Proc.devRef .tc main_v102) = (addf (F := Ideal) (W12 m ρ c (Proc.devRef .tc main_v100) : FVec Ideal S50000x64 .f32) (broadcastInDim S50000x64 ![0, 1] Cert.ReferenceIdeal.Facts₀.bcast_S1x64_S50000x64_0_1 (broadcastInDim S1x64 ![1] Cert.ReferenceIdeal.Facts₀.bcast_S64_S1x64_1 (W11 m ρ c (Proc.devRef .tc main_arg9) : FVec Ideal S64 .f32))) : FVec Ideal S50000x64 .f32) :=
  by
  refine (W13_arr m ρ c 2).trans ((Cert.KernelIdeal.NormRegion.region7 (V12 m ρ) c).trans ?_)
  show Cert.GcnSpec.addRow (N := 50000) (C := 64) (W12 m ρ c (Proc.devRef .tc main_v100)) (W12 m ρ c (Proc.devRef .tc main_v101)) = _
  rw [W12_v101 m ρ c]
  exact Cert.GcnSpec.addRow_reshaped _ _ _ _ _
theorem W13_in0 : W13 m ρ c (Proc.devRef .tc main_v100) = W12 m ρ c (Proc.devRef .tc main_v100) :=
  (W13_arr m ρ c 0).trans (((dat7 (V12 m ρ) c).arrAt_in 0 rfl _).trans (A_eq7 (V12 m ρ) c 0))
theorem W13_in1 : W13 m ρ c (Proc.devRef .tc main_v101) = W12 m ρ c (Proc.devRef .tc main_v101) :=
  (W13_arr m ρ c 1).trans (((dat7 (V12 m ρ) c).arrAt_in 1 rfl _).trans (A_eq7 (V12 m ρ) c 1))

end Cert.KernelIdeal.Fold

end
-- ==== Proof.LibConcatTwo.lean ====
/-
  The concatenation of two arrays along an axis with the two operands as plain arguments.

  The library's concatenation takes its operands as a list of (shape, array) pairs; an array inside such a dependent
  pair is not reached by rewriting.  Stated with the two arrays as arguments of their own, each operand can be
  rewritten; the two forms are the same function by definition.
-/
import Idealize.ShloMosaic.PureOps

noncomputable section

namespace Cert.LibConcatTwo

open Idealize.ShloMosaic

/-- Two arrays joined along an axis, the operands as plain arguments. -/
def concat2 {α : Type} (t : Shape) (a : Fin t.rank) (s1 s2 : Shape) (x : s1.Idx → α) (y : s2.Idx → α)
    (h : Shape.Concatenates [s1, s2] t a) : t.Idx → α :=
  concatenate t a [⟨s1, x⟩, ⟨s2, y⟩] h

/-- The library's two-operand concatenation is this one. -/
theorem concat2_eq {α : Type} (t : Shape) (a : Fin t.rank) (s1 s2 : Shape) (x : s1.Idx → α) (y : s2.Idx → α)
    (h : Shape.Concatenates [s1, s2] t a) : concatenate t a [⟨s1, x⟩, ⟨s2, y⟩] h = concat2 t a s1 s2 x y h := rfl

end Cert.LibConcatTwo

end
-- ==== Proof.Bridge.lean ====
/-
  The two programs compute one function of the argument arrays.

  The reference's result is one long composition of whole-array operations on its arguments.  The kernel's result is
  the contents of its result buffer at the last segment boundary; unfolded boundary by boundary (Fold.lean: every
  stretch of whole-array operations is read operation by operation, every kernel region contributes one equation)
  it is a composition of the same operations on the same arguments: the same edge lists with self loops, the same
  degree normalisation, and per layer the same dense product, gather, scaling, scatter-add, bias, normalisation and
  rectifier.  The two compositions differ only in how the dimension records and shape facts are named, so once the
  argument arrays are identified they are equal by unfolding definitions.
-/
import proofs.«152018_j8220567405097_1_alg».proof.Proof.Fold
import proofs.«152018_j8220567405097_1_alg».proof.Proof.LibConcatTwo
import proofs.«152018_j8220567405097_1_alg».proof.Proof.Gen.ReferenceIdeal.Run

set_option maxRecDepth 16384

noncomputable section

namespace Cert.KernelIdeal.Bridge

open Cert.KernelIdeal Cert.KernelIdeal.Gen Cert.KernelIdeal.Fold Cert.LibConcatTwo
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

set_option maxRecDepth 200000 in
set_option maxHeartbeats 8000000 in
/-- The reference's result term, over arguments that agree with the kernel's, is the kernel's result buffer at its last
    segment boundary. -/
theorem result_eq (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11))
    (h12 : m' ((c.tc : Thread Cert.ReferenceIdeal.nD Cert.ReferenceIdeal.τ).loc Cert.ReferenceIdeal.main_arg12) = m ((c.tc : Thread nD τ).loc main_arg12))
    (h13 : m' ((c.tc : Thread Cert.ReferenceIdeal.nD Cert.ReferenceIdeal.τ).loc Cert.ReferenceIdeal.main_arg13) = m ((c.tc : Thread nD τ).loc main_arg13))
    (h14 : m' ((c.tc : Thread Cert.ReferenceIdeal.nD Cert.ReferenceIdeal.τ).loc Cert.ReferenceIdeal.main_arg14) = m ((c.tc : Thread nD τ).loc main_arg14))
    (h15 : m' ((c.tc : Thread Cert.ReferenceIdeal.nD Cert.ReferenceIdeal.τ).loc Cert.ReferenceIdeal.main_arg15) = m ((c.tc : Thread nD τ).loc main_arg15))
    (h16 : m' ((c.tc : Thread Cert.ReferenceIdeal.nD Cert.ReferenceIdeal.τ).loc Cert.ReferenceIdeal.main_arg16) = m ((c.tc : Thread nD τ).loc main_arg16))
    (h17 : m' ((c.tc : Thread Cert.ReferenceIdeal.nD Cert.ReferenceIdeal.τ).loc Cert.ReferenceIdeal.main_arg17) = m ((c.tc : Thread nD τ).loc main_arg17))
    (h18 : m' ((c.tc : Thread Cert.ReferenceIdeal.nD Cert.ReferenceIdeal.τ).loc Cert.ReferenceIdeal.main_arg18) = m ((c.tc : Thread nD τ).loc main_arg18))
    (h19 : m' ((c.tc : Thread Cert.ReferenceIdeal.nD Cert.ReferenceIdeal.τ).loc Cert.ReferenceIdeal.main_arg19) = m ((c.tc : Thread nD τ).loc main_arg19))
    (h20 : m' ((c.tc : Thread Cert.ReferenceIdeal.nD Cert.ReferenceIdeal.τ).loc Cert.ReferenceIdeal.main_arg20) = m ((c.tc : Thread nD τ).loc main_arg20))
    (h21 : m' ((c.tc : Thread Cert.ReferenceIdeal.nD Cert.ReferenceIdeal.τ).loc Cert.ReferenceIdeal.main_arg21) = m ((c.tc : Thread nD τ).loc main_arg21)) :
    Cert.ReferenceIdeal.Value.res_main_v142 m' c = W13 m ρ c (Proc.devRef .tc main_v102) := by
  unfold Cert.ReferenceIdeal.Value.res_main_v142
  rw [h0, h1, h2, h3, h4, h5, h6, h7, h8, h9, h10, h11, h12, h13, h14, h15, h16, h17, h18, h19, h20, h21]
  symm
  simp (disch := decide) only [W2_out m ρ c, W2_in0 m ρ c, W2_in1 m ρ c, W2_of_ne m ρ c,
      W4_out m ρ c, W4_in0 m ρ c, W4_in1 m ρ c, W4_in2 m ρ c, W4_in3 m ρ c, W4_in4 m ρ c, W4_in5 m ρ c, W4_of_ne m ρ c,
      W5_out m ρ c, W5_in0 m ρ c, W5_in1 m ρ c, W5_of_ne m ρ c,
      W7_out m ρ c, W7_in0 m ρ c, W7_in1 m ρ c, W7_in2 m ρ c, W7_in3 m ρ c, W7_in4 m ρ c, W7_in5 m ρ c, W7_of_ne m ρ c,
      W8_out m ρ c, W8_in0 m ρ c, W8_in1 m ρ c, W8_of_ne m ρ c,
      W10_out m ρ c, W10_in0 m ρ c, W10_in1 m ρ c, W10_in2 m ρ c, W10_in3 m ρ c, W10_in4 m ρ c, W10_in5 m ρ c, W10_of_ne m ρ c,
      W11_out m ρ c, W11_in0 m ρ c, W11_in1 m ρ c, W11_of_ne m ρ c,
      W13_out m ρ c, W13_in0 m ρ c, W13_in1 m ρ c, W13_of_ne m ρ c,
      concat2_eq, after_cons, after_nil,
      nullary_result', unary_result', binary_result', ternary_result', quaternary_result', reshape_result',
      nullary_result_ne', unary_result_ne', binary_result_ne', ternary_result_ne', quaternary_result_ne', reshape_result_ne']
  rfl

end Cert.KernelIdeal.Bridge

end
-- ==== Proof.lean ====
/-
  A four-layer graph convolution (dense product, weighted neighbourhood sum, bias, batch normalisation, rectifier; the
  last layer without normalisation) as eight kernel regions among whole-array operations, against the same network
  written with whole-array operations only.

  Over the extended reals a change of float format is the identity and a matrix product into a zero accumulator is
  the plain sum over the contracted index, so each dense region computes, row block by row block, the whole product
  (Dense0 … Dense6), and each per-node region computes, row block by row block, the normalise-and-rectify stage or
  the bias add of the whole array (Norm1, Norm3, Norm5, Bias7).  Everything else — the edge lists with self loops, the
  degree normalisation, the gather of source rows, the scaling and the scatter-add to destination rows — is the same
  sequence of whole-array operations in both programs.  The kernel's run is read back boundary by boundary (Fold), the
  reference's run is the generated one, and the two result terms are one function of the arguments (Bridge).  No law
  of arithmetic beyond unfolding is used, so the precondition (finite inputs) is never opened.
  The kernel was not idealised by any rewrite, so there is nothing to preserve.
-/
import proofs.«152018_j8220567405097_1_alg».proof.Defs
import proofs.«152018_j8220567405097_1_alg».proof.Proof.Gen.Kernel
import proofs.«152018_j8220567405097_1_alg».proof.Proof.Gen.Kernel.Skeleton
import proofs.«152018_j8220567405097_1_alg».proof.Proof.Gen.Kernel.Launch
import proofs.«152018_j8220567405097_1_alg».proof.Proof.Gen.Kernel.Points
import proofs.«152018_j8220567405097_1_alg».proof.Proof.Gen.Kernel.Frame
import proofs.«152018_j8220567405097_1_alg».proof.Proof.Gen.KernelIdeal
import proofs.«152018_j8220567405097_1_alg».proof.Proof.Gen.KernelIdeal.Skeleton
import proofs.«152018_j8220567405097_1_alg».proof.Proof.Gen.KernelIdeal.Launch
import proofs.«152018_j8220567405097_1_alg».proof.Proof.Gen.KernelIdeal.Points
import proofs.«152018_j8220567405097_1_alg».proof.Proof.Gen.KernelIdeal.Frame
import proofs.«152018_j8220567405097_1_alg».proof.Proof.Gen.ReferenceIdeal
import proofs.«152018_j8220567405097_1_alg».proof.Proof.Gen.ReferenceIdeal.Run
import proofs.«152018_j8220567405097_1_alg».proof.Proof.Gen.Pre_finite_inputs
import proofs.«152018_j8220567405097_1_alg».proof.Proof.KernelRun
import proofs.«152018_j8220567405097_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both runs end with the result buffer at one array: the kernel's last segment boundary's contents, which is the
    reference's result term over arguments that agree. -/
theorem algebraic : Cert.algebraic_KernelIdeal_ReferenceIdeal := by
  intro m ρ m' ρ' _ hagree
  refine ⟨fun c => Cert.KernelIdeal.Gen.W13 m ρ c (Proc.devRef .tc Cert.KernelIdeal.main_v102),
    Cert.KernelIdeal.RunValue.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21⟩ := hagree c
  exact Cert.KernelIdeal.Bridge.result_eq m ρ c m' h0 h1 h2 h3 h4 h5 h6 h7 h8 h9 h10 h11 h12 h13 h14 h15 h16 h17 h18 h19 h20 h21

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
